-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x3x128 : Shape := ⟨3, ![200000, 3, 128]⟩
abbrev S200000 : Shape := ⟨1, ![200000]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x3x128 : S_.BroadcastsInDim S200000x3x128 (![] : Fin 0 → Fin S200000x3x128.rank)
  reducesTo_S200000x3x128_S_d0_1_2 : S200000x3x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S200000x128 .f32) (main_arg1 : FVec F S200000x3x128 .f32) (main_arg2 : IVec S200000 32) (main_arg3 : FVec F S128 .f32) (main_arg4 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x3x128 .f32 := Host.absf main_arg1
  let main_cst_0 : FVec F S_ .f32 := constant S_ .f32 0x7F800000#32
  let main_v5 : FVec F S200000x3x128 .f32 := broadcastInDim S200000x3x128 ![] bcast_S_S200000x3x128 main_cst_0
  let main_v6 : IVec S200000x3x128 1 := cmpf .olt main_v4 main_v5
  let main_c_1 : IVec S_ 1 := constantI S_ 1 1#1
  let main_v7 : IVec S_ 1 := (fun x v => Host.reduce IntOp.andi x v reducesTo_S200000x3x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S200000x128 : Shape := ⟨2, ![200000, 128]⟩
abbrev S200000x3x128 : Shape := ⟨3, ![200000, 3, 128]⟩
abbrev S200000 : Shape := ⟨1, ![200000]⟩
abbrev S128 : Shape := ⟨1, ![128]⟩
abbrev S200000x384 : Shape := ⟨2, ![200000, 384]⟩
abbrev S200000x3 : Shape := ⟨2, ![200000, 3]⟩
abbrev S10000x128 : Shape := ⟨2, ![10000, 128]⟩
abbrev S10000x384 : Shape := ⟨2, ![10000, 384]⟩
abbrev S10000x3 : Shape := ⟨2, ![10000, 3]⟩
abbrev S10000 : Shape := ⟨1, ![10000]⟩
abbrev S10000x1 : Shape := ⟨2, ![10000, 1]⟩
abbrev S200000x1 : Shape := ⟨2, ![200000, 1]⟩
abbrev S_ : Shape := ⟨0, ![]⟩
abbrev S512 : Shape := ⟨1, ![512]⟩
abbrev S512x1 : Shape := ⟨2, ![512, 1]⟩
abbrev S512x2 : Shape := ⟨2, ![512, 2]⟩
abbrev S200000x2 : Shape := ⟨2, ![200000, 2]⟩
abbrev S5000x128 : Shape := ⟨2, ![5000, 128]⟩
abbrev S5000x384 : Shape := ⟨2, ![5000, 384]⟩
abbrev S5000x1 : Shape := ⟨2, ![5000, 1]⟩
abbrev S1x128 : Shape := ⟨2, ![1, 128]⟩

abbrev nBuf : Space → Nat
  | .hbm => 86
  | .vmem => 22
  | .smem => 0
  | _ => 0

abbrev bufTy : (tb : Table) → Fin (tcTables nBuf tb) → BufTy
  | .hbm, ⟨0, _⟩ => ⟨S200000x128, .f32⟩
  | .hbm, ⟨1, _⟩ => ⟨S200000x3x128, .f32⟩
  | .hbm, ⟨2, _⟩ => ⟨S200000, .i32⟩
  | .hbm, ⟨3, _⟩ => ⟨S128, .f32⟩
  | .hbm, ⟨4, _⟩ => ⟨S128, .f32⟩
  | .hbm, ⟨5, _⟩ => ⟨S200000x384, .f32⟩
  | .hbm, ⟨6, _⟩ => ⟨S200000x3, .f32⟩
  | .hbm, ⟨7, _⟩ => ⟨S200000x1, .f32⟩
  | .hbm, ⟨8, _⟩ => ⟨S200000, .f32⟩
  | .hbm, ⟨9, _⟩ => ⟨S200000x1, .f32⟩
  | .hbm, ⟨10, _⟩ => ⟨S200000, .f32⟩
  | .hbm, ⟨11, _⟩ => ⟨S200000x1, .f32⟩
  | .hbm, ⟨12, _⟩ => ⟨S200000, .f32⟩
  | .hbm, ⟨13, _⟩ => ⟨S_, .f32⟩
  | .hbm, ⟨14, _⟩ => ⟨S200000, .f32⟩
  | .hbm, ⟨15, _⟩ => ⟨S_, .f32⟩
  | .hbm, ⟨16, _⟩ => ⟨S512, .f32⟩
  | .hbm, ⟨17, _⟩ => ⟨S200000x1, .i32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S200000x1, .i32⟩
  | .hbm, ⟨25, _⟩ => ⟨S512, .f32⟩
  | .hbm, ⟨26, _⟩ => ⟨S512, .f32⟩
  | .hbm, ⟨27, _⟩ => ⟨S_, .i32⟩
  | .hbm, ⟨28, _⟩ => ⟨S200000, .i32⟩
  | .hbm, ⟨29, _⟩ => ⟨S200000, .i1⟩
  | .hbm, ⟨30, _⟩ => ⟨S_, .i32⟩
  | .hbm, ⟨31, _⟩ => ⟨S200000, .i32⟩
  | .hbm, ⟨32, _⟩ => ⟨S200000, .i32⟩
  | .hbm, ⟨33, _⟩ => ⟨S200000, .i32⟩
  | .hbm, ⟨34, _⟩ => ⟨S200000x1, .i32⟩
  | .hbm, ⟨35, _⟩ => ⟨S200000, .f32⟩
  | .hbm, ⟨36, _⟩ => ⟨S_, .f32⟩
  | .hbm, ⟨37, _⟩ => ⟨S200000, .f32⟩
  | .hbm, ⟨38, _⟩ => ⟨S200000, .f32⟩
  | .hbm, ⟨39, _⟩ => ⟨S200000, .f32⟩
  | .hbm, ⟨40, _⟩ => ⟨S200000, .f32⟩
  | .hbm, ⟨41, _⟩ => ⟨S200000, .f32⟩
  | .hbm, ⟨42, _⟩ => ⟨S200000, .f32⟩
  | .hbm, ⟨43, _⟩ => ⟨S_, .f32⟩
  | .hbm, ⟨44, _⟩ => ⟨S200000, .f32⟩
  | .hbm, ⟨45, _⟩ => ⟨S200000, .f32⟩
  | .hbm, ⟨46, _⟩ => ⟨S_, .f32⟩
  | .hbm, ⟨47, _⟩ => ⟨S512, .f32⟩
  | .hbm, ⟨48, _⟩ => ⟨S200000x1, .i32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S200000x1, .i32⟩
  | .hbm, ⟨60, _⟩ => ⟨S512, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512x1, .f32⟩
  | .hbm, ⟨69, _⟩ => ⟨S512x1, .f32⟩
  | .hbm, ⟨70, _⟩ => ⟨S512x2, .f32⟩
  | .hbm, ⟨71, _⟩ => ⟨S_, .i32⟩
  | .hbm, ⟨72, _⟩ => ⟨S200000, .i32⟩
  | .hbm, ⟨73, _⟩ => ⟨S200000, .i1⟩
  | .hbm, ⟨74, _⟩ => ⟨S_, .i32⟩
  | .hbm, ⟨75, _⟩ => ⟨S200000, .i32⟩
  | .hbm, ⟨76, _⟩ => ⟨S200000, .i32⟩
  | .hbm, ⟨77, _⟩ => ⟨S200000, .i32⟩
  | .hbm, ⟨78, _⟩ => ⟨S200000x1, .i32⟩
  | .hbm, ⟨79, _⟩ => ⟨S200000x2, .f32⟩
  | .hbm, ⟨80, _⟩ => ⟨S200000x1, .f32⟩
  | .hbm, ⟨81, _⟩ => ⟨S200000x1, .f32⟩
  | .hbm, ⟨82, _⟩ => ⟨S200000x1, .f32⟩
  | .hbm, ⟨83, _⟩ => ⟨S200000x128, .f32⟩
  | .hbm, ⟨84, _⟩ => ⟨S200000x384, .f32⟩
  | .hbm, ⟨85, _⟩ => ⟨S200000x3x128, .f32⟩
  | .local _ .vmem, ⟨0, _⟩ => ⟨S10000x128, .f32⟩
  | .local _ .vmem, ⟨1, _⟩ => ⟨S10000x128, .f32⟩
  | .local _ .vmem, ⟨2, _⟩ => ⟨S10000x384, .f32⟩
  | .local _ .vmem, ⟨3, _⟩ => ⟨S10000x384, .f32⟩
  | .local _ .vmem, ⟨4, _⟩ => ⟨S10000x3, .f32⟩
  | .local _ .vmem, ⟨5, _⟩ => ⟨S10000x3, .f32⟩
  | .local _ .vmem, ⟨6, _⟩ => ⟨S5000x128, .f32⟩
  | .local _ .vmem, ⟨7, _⟩ => ⟨S5000x128, .f32⟩
  | .local _ .vmem, ⟨8, _⟩ => ⟨S5000x384, .f32⟩
  | .local _ .vmem, ⟨9, _⟩ => ⟨S5000x384, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x384, .f32⟩
  | .local _ .vmem, ⟨21, _⟩ => ⟨S5000x384, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_v53 : Ref sig .tc := ⟨.hbm, 73, rfl⟩
abbrev main_c_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S200000x3x128_S200000x384 : S200000x3x128.ShapeCasts S200000x384
  inb_S10000x128_S10000x128_0_0 : ∀ a, (![0, 0] : Fin 2 → Nat) a + S10000x128.size a ≤ S10000x128.size a
  h_S10000x128 : 0 < S10000x128.numel
  inb_S10000x384_S10000x384_0_0 : ∀ a, (![0, 0] : Fin 2 → Nat) a + S10000x384.size a ≤ S10000x384.size a
  h_S10000x384 : 0 < S10000x384.numel
  shapeCasts_S10000x384_S10000x384 : S10000x384.ShapeCasts S10000x384
  reduces_S10000x128_S10000 : S10000x128.Reduces [1] S10000
  shapeCasts_S10000_S10000x1 : S10000.ShapeCasts S10000x1
  slices_S10000x384_o0_0_S10000x128 : S10000x384.Slices ![0, 0] S10000x128
  slices_S10000x384_o0_128_S10000x128 : S10000x384.Slices ![0, 128] S10000x128
  slices_S10000x384_o0_256_S10000x128 : S10000x384.Slices ![0, 256] S10000x128
  concatenates_S10000x1_S10000x1_S10000x1_S10000x3_d1 : Shape.Concatenates [S10000x1, S10000x1, S10000x1] S10000x3 1
  inb_S10000x3_S10000x3_0_0 : ∀ a, (![0, 0] : Fin 2 → Nat) a + S10000x3.size a ≤ S10000x3.size a
  h_S10000x3 : 0 < S10000x3.numel
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  bcast_S512_S512x1_0 : S512.BroadcastsInDim S512x1 (![0] : Fin 1 → Fin S512x1.rank)
  concatenates_S512x1_S512x1_S512x2_d1 : Shape.Concatenates [S512x1, S512x1] S512x2 1
  slices_S200000x2_S200000x1_0_0 : S200000x2.Slices ![0, 0] S200000x1
  slices_S200000x2_S200000x1_0_1 : S200000x2.Slices ![0, 1] S200000x1
  inb_S5000x128_S5000x128_0_0 : ∀ a, (![0, 0] : Fin 2 → Nat) a + S5000x128.size a ≤ S5000x128.size a
  h_S5000x128 : 0 < S5000x128.numel
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128_S128_0 : ∀ a, (![0] : Fin 1 → Nat) a + S128.size a ≤ S128.size a
  h_S128 : 0 < S128.numel
  broadcasts_S5000x1_S5000x128 : S5000x1.Broadcasts S5000x128
  shapeCasts_S128_S1x128 : S128.ShapeCasts S1x128
  broadcasts_S1x128_S5000x128 : S1x128.Broadcasts S5000x128
  broadcasts_S5000x1_S5000x384 : S5000x1.Broadcasts S5000x384
  shapeCasts_S200000x384_S200000x3x128 : S200000x384.ShapeCasts S200000x3x128
  scatter_S512_S200000x1_S200000_n_0_0_1_wf : ScatterDims.WF S512 S200000x1 S200000 [] [0] [0] 1
  gather_S512_S200000x1_S200000_n_0_n_n_0_1_1_wf : GatherDims.WF S512 S200000x1 S200000 [] [0] [] [0] [] 1 ![1]
  gather_S512x2_S200000x1_S200000x2_1_0_n_n_0_1_12_wf : GatherDims.WF S512x2 S200000x1 S200000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x384.size a ≤ S200000x384.size a
  hwx0_1 : ∀ i : grid0.Coords, EltTy.bits .f32 = 32 ∨ (Rect.block (s := S200000x384) S10000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x3.size a ≤ S200000x3.size a
  hwx0_2 : ∀ i : grid0.Coords, EltTy.bits .f32 = 32 ∨ (Rect.block (s := S200000x3) S10000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x384.size a ≤ S200000x384.size a
  hwx1_1 : ∀ i : grid1.Coords, EltTy.bits .f32 = 32 ∨ (Rect.block (s := S200000x384) S5000x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S200000x1.size a
  hwx1_3 : ∀ i : grid1.Coords, EltTy.bits .f32 = 32 ∨ (Rect.block (s := S200000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S200000x1.size a
  hwx1_4 : ∀ i : grid1.Coords, EltTy.bits .f32 = 32 ∨ (Rect.block (s := S200000x1) S5000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S200000x128.size a
  hwx1_7 : ∀ i : grid1.Coords, EltTy.bits .f32 = 32 ∨ (Rect.block (s := S200000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x384.size a ≤ S200000x384.size a
  hwx1_8 : ∀ i : grid1.Coords, EltTy.bits .f32 = 32 ∨ (Rect.block (s := S200000x384) S5000x384.size (cc1_transform_8 i) (hinb1_8 i)).WholeWords (EltTy.packing .f32)

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def gather_S512_S200000x1_S200000_n_0_n_n_0_1_1 : GatherDims S512 S200000x1 S200000 where
  offsetDims := []
  collapsedSliceDims := [0]
  operandBatchingDims := []
  startIndicesBatchingDims := []
  startIndexMap := [0]
  indexVectorDim := 1
  sliceSizes := ![1]
  wf := gather_S512_S200000x1_S200000_n_0_n_n_0_1_1_wf
def gather_S512x2_S200000x1_S200000x2_1_0_n_n_0_1_12 : GatherDims S512x2 S200000x1 S200000x2 where
  offsetDims := [1]
  collapsedSliceDims := [0]
  operandBatchingDims := []
  startIndicesBatchingDims := []
  startIndexMap := [0]
  indexVectorDim := 1
  sliceSizes := ![1, 2]
  wf := gather_S512x2_S200000x1_S200000x2_1_0_n_n_0_1_12_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v60) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v61) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v62_1) S5000x384.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x128 : Shape := ⟨2, ![200000, 128]⟩
abbrev S200000x3x128 : Shape := ⟨3, ![200000, 3, 128]⟩
abbrev S200000 : Shape := ⟨1, ![200000]⟩
abbrev S128 : Shape := ⟨1, ![128]⟩
abbrev S_ : Shape := ⟨0, ![]⟩
abbrev S512 : Shape := ⟨1, ![512]⟩
abbrev S200000x1 : Shape := ⟨2, ![200000, 1]⟩
abbrev S1x128 : Shape := ⟨2, ![1, 128]⟩
abbrev S200000x1x1 : Shape := ⟨3, ![200000, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x3x128, .f32⟩
  | .hbm, ⟨2, _⟩ => ⟨S200000, .i32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S200000, .f32⟩
  | .hbm, ⟨7, _⟩ => ⟨S_, .f32⟩
  | .hbm, ⟨8, _⟩ => ⟨S512, .f32⟩
  | .hbm, ⟨9, _⟩ => ⟨S200000x1, .i32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S_, .f32⟩
  | .hbm, ⟨20, _⟩ => ⟨S512, .f32⟩
  | .hbm, ⟨21, _⟩ => ⟨S200000x1, .i32⟩
  | .hbm, ⟨22, _⟩ => ⟨S512, .f32⟩
  | .hbm, ⟨23, _⟩ => ⟨S512, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S200000x128, .f32⟩
  | .hbm, ⟨37, _⟩ => ⟨S_, .f32⟩
  | .hbm, ⟨38, _⟩ => ⟨S200000, .f32⟩
  | .hbm, ⟨39, _⟩ => ⟨S_, .f32⟩
  | .hbm, ⟨40, _⟩ => ⟨S200000, .f32⟩
  | .hbm, ⟨41, _⟩ => ⟨S200000, .f32⟩
  | .hbm, ⟨42, _⟩ => ⟨S_, .f32⟩
  | .hbm, ⟨43, _⟩ => ⟨S512, .f32⟩
  | .hbm, ⟨44, _⟩ => ⟨S200000x1, .i32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000, .f32⟩
  | .hbm, ⟨59, _⟩ => ⟨S200000x1, .f32⟩
  | .hbm, ⟨60, _⟩ => ⟨S200000x128, .f32⟩
  | .hbm, ⟨61, _⟩ => ⟨S200000x128, .f32⟩
  | .hbm, ⟨62, _⟩ => ⟨S1x128, .f32⟩
  | .hbm, ⟨63, _⟩ => ⟨S200000x128, .f32⟩
  | .hbm, ⟨64, _⟩ => ⟨S200000x128, .f32⟩
  | .hbm, ⟨65, _⟩ => ⟨S1x128, .f32⟩
  | .hbm, ⟨66, _⟩ => ⟨S200000x128, .f32⟩
  | .hbm, ⟨67, _⟩ => ⟨S200000x128, .f32⟩
  | .hbm, ⟨68, _⟩ => ⟨S200000x3x128, .f32⟩
  | .hbm, ⟨69, _⟩ => ⟨S_, .f32⟩
  | .hbm, ⟨70, _⟩ => ⟨S200000x128, .f32⟩
  | .hbm, ⟨71, _⟩ => ⟨S_, .f32⟩
  | .hbm, ⟨72, _⟩ => ⟨S200000, .f32⟩
  | .hbm, ⟨73, _⟩ => ⟨S_, .f32⟩
  | .hbm, ⟨74, _⟩ => ⟨S200000, .f32⟩
  | .hbm, ⟨75, _⟩ => ⟨S200000, .f32⟩
  | .hbm, ⟨76, _⟩ => ⟨S_, .f32⟩
  | .hbm, ⟨77, _⟩ => ⟨S512, .f32⟩
  | .hbm, ⟨78, _⟩ => ⟨S200000x1, .i32⟩
  | .hbm, ⟨79, _⟩ => ⟨S512, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000, .f32⟩
  | .hbm, ⟨93, _⟩ => ⟨S200000x1x1, .f32⟩
  | .hbm, ⟨94, _⟩ => ⟨S200000x3x128, .f32⟩
  | .hbm, ⟨95, _⟩ => ⟨S200000x3x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_c_10 : Ref sig .tc := ⟨.hbm, 50, rfl⟩
abbrev main_v33 : Ref sig .tc := ⟨.hbm, 51, rfl⟩
abbrev main_v34 : Ref sig .tc := ⟨.hbm, 52, rfl⟩
abbrev main_c_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_c_17 : Ref sig .tc := ⟨.hbm, 84, rfl⟩
abbrev main_v60 : Ref sig .tc := ⟨.hbm, 85, rfl⟩
abbrev main_v61 : Ref sig .tc := ⟨.hbm, 86, rfl⟩
abbrev main_c_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S512 : S_.BroadcastsInDim S512 (![] : Fin 0 → Fin S512.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x3x128_S200000x128_d1 : S200000x3x128.ReducesTo [1] S200000x128
  bcast_S200000_S200000x1x1_0 : S200000.BroadcastsInDim S200000x1x1 (![0] : Fin 1 → Fin S200000x1x1.rank)
  bcast_S200000x1x1_S200000x3x128_0_1_2 : S200000x1x1.BroadcastsInDim S200000x3x128 (![0, 1, 2] : Fin 3 → Fin S200000x3x128.rank)
  scatter_S512_S200000x1_S200000_n_0_0_1_wf : ScatterDims.WF S512 S200000x1 S200000 [] [0] [0] 1
  gather_S512_S200000x1_S200000_n_0_n_n_0_1_1_wf : GatherDims.WF S512 S200000x1 S200000 [] [0] [] [0] [] 1 ![1]

variable [Facts₀]

def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def gather_S512_S200000x1_S200000_n_0_n_n_0_1_1 : GatherDims S512 S200000x1 S200000 where
  offsetDims := []
  collapsedSliceDims := [0]
  operandBatchingDims := []
  startIndicesBatchingDims := []
  startIndexMap := [0]
  indexVectorDim := 1
  sliceSizes := ![1]
  wf := gather_S512_S200000x1_S200000_n_0_n_n_0_1_1_wf

class Facts : Prop extends Facts₀ where

variable [Facts]
-- ==== Proof.Results.lean ====
/-
  The idealized program's run with its two result arrays named.  @main is five segments — a reshape of v, the
  statistics region, the per-graph host arithmetic, the normalising region, a reshape back — and the buffer contents
  at each boundary are a fold through them (`Gen.W0` … `Gen.W5`).  Every weakly fair execution terminates with every
  unscoped buffer at the last boundary's contents; read at the two result buffers this names the results, and read at
  the arguments it says they are unchanged.
-/
import proofs.«150193_j37254546325938_2_alg».proof.Proof.Gen.KernelIdeal.Frame

set_option maxRecDepth 16384

noncomputable section

namespace Cert.KernelIdeal.Res

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the five arguments as launched. -/
theorem run_results : θ_run defs (onTc (τ := τ) (main (F := F))) ⟨m, fun _ => 0, ρ⟩ (fun r => ∀ c : Dev nD,
      r.2.mem ((c.tc : Thread nD τ).loc main_v62_0) = W5 m ρ c (Proc.devRef .tc main_v62_0)
      ∧ r.2.mem ((c.tc : Thread nD τ).loc main_v63) = W5 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v62_0 (by decide)), h c _ (mem_uc main_v63 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Res

end
-- ==== Proof.Shared.lean ====
/-
  The per-graph host arithmetic both programs share, as named functions on whole arrays over the extended reals.
  With g = index (one graph id per row, 512 graphs):
    segSum g u [j]  = Σ over the rows n with g[n] = j of u[n]          (a scatter-add into zeros)
    counts g  [j]  = max (number of rows of graph j) 1
    segMean g u    = segSum g u / counts g
    gat x g   [n]  = x at row n's graph id (a negative id wrapped by 512, then clamped into range)
    clampEps x     = max x ε,  ε the float 1e-6
  and the 2-column table gather that the kernel uses to spread the two reciprocal tables to the rows.
-/
import proofs.«150193_j37254546325938_2_alg».proof.KernelIdeal
import Idealize.ShloMosaic.PureOps.Ideal

noncomputable section

namespace Cert.Shared

open Idealize.ShloMosaic Cert.KernelIdeal

variable [Cert.KernelIdeal.Facts]
open Cert.KernelIdeal.Facts₀

/-- A length-512 array filled with one float pattern. -/
def fill512 (b : BitVec 32) : FVec Ideal S512 .f32 := broadcastInDim S512 ![] bcast_S_S512 (constant (F := Ideal) S_ .f32 b)
/-- A length-N array filled with one float pattern. -/
def fillN (b : BitVec 32) : FVec Ideal S200000 .f32 := broadcastInDim S200000 ![] bcast_S_S200000 (constant (F := Ideal) S_ .f32 b)
/-- A length-N integer array filled with one word. -/
def fillNI (b : BitVec 32) : IVec S200000 32 := broadcastInDim S200000 ![] bcast_S_S200000 (constantI S_ 32 b)

/-- A length-N array as an N × 1 column. -/
def colOf {α : Type} (x : S200000.Idx → α) : S200000x1.Idx → α := broadcastInDim S200000x1 ![0] bcast_S200000_S200000x1_0 x

/-- The per-graph sum of a per-row stream. -/
def segSum (g : IVec S200000 32) (u : FVec Ideal S200000 .f32) : FVec Ideal S512 .f32 :=
  Host.scatterAdd (F := Ideal) scatter_S512_S200000x1_S200000_n_0_0_1 (fill512 0x00000000#32) (colOf g) u

/-- The per-graph row count, at least one. -/
def counts (g : IVec S200000 32) : FVec Ideal S512 .f32 := maximumf (segSum g (fillN 0x3F800000#32)) (fill512 0x3F800000#32)

/-- The per-graph mean of a per-row stream. -/
def segMean (g : IVec S200000 32) (u : FVec Ideal S200000 .f32) : FVec Ideal S512 .f32 :=
  Host.divf (F := Ideal) (segSum g u) (counts g)

/-- The graph ids with a negative id wrapped by 512. -/
def wrapIdx (g : IVec S200000 32) : IVec S200000 32 :=
  select (cmpi .slt g (fillNI 0#32)) (addi g (fillNI 512#32)) g

/-- A per-graph array read at each row's graph. -/
def gat (x : FVec Ideal S512 .f32) (g : IVec S200000 32) : FVec Ideal S200000 .f32 :=
  Host.gather gather_S512_S200000x1_S200000_n_0_n_n_0_1_1 x (colOf (wrapIdx g))

/-- A per-graph array clamped below by ε. -/
def clampEps (x : FVec Ideal S512 .f32) : FVec Ideal S512 .f32 := maximumf x (fill512 0x358637BD#32)

/-- The reciprocal of a per-graph array. -/
def recip512 (x : FVec Ideal S512 .f32) : FVec Ideal S512 .f32 := Host.divf (F := Ideal) (fill512 0x3F800000#32) x

/-- Two per-graph arrays as the columns of a 512 × 2 table, read at each row's graph: an N × 2 array. -/
def gat2 (x y : FVec Ideal S512 .f32) (g : IVec S200000 32) : FVec Ideal S200000x2 .f32 :=
  Host.gather gather_S512x2_S200000x1_S200000x2_1_0_n_n_0_1_12
    (concatenate S512x2 1 [⟨S512x1, broadcastInDim S512x1 ![0] bcast_S512_S512x1_0 x⟩, ⟨S512x1, broadcastInDim S512x1 ![0] bcast_S512_S512x1_0 y⟩] concatenates_S512x1_S512x1_S512x2_d1)
    (colOf (wrapIdx g))

/-- Column `j` of the N × 3 statistics array as a length-N stream. -/
def statCol0 (st : FVec Ideal S200000x3 .f32) : FVec Ideal S200000 .f32 :=
  shapeCast S200000 (extractStridedSlice S200000x1 ![0, 0] st slices_S200000x3_S200000x1_0_0) shapeCasts_S200000x1_S200000
def statCol1 (st : FVec Ideal S200000x3 .f32) : FVec Ideal S200000 .f32 :=
  shapeCast S200000 (extractStridedSlice S200000x1 ![0, 1] st slices_S200000x3_S200000x1_0_1) shapeCasts_S200000x1_S200000
def statCol2 (st : FVec Ideal S200000x3 .f32) : FVec Ideal S200000 .f32 :=
  shapeCast S200000 (extractStridedSlice S200000x1 ![0, 2] st slices_S200000x3_S200000x1_0_2) shapeCasts_S200000x1_S200000

/-- The kernel program's per-row variance stream from the packed statistics: E[s²] − (2·μ)·E[s] + μ·μ, clamped at 0,
    μ the row's graph mean. -/
def kVarNode (st : FVec Ideal S200000x3 .f32) (g : IVec S200000 32) : FVec Ideal S200000 .f32 :=
  maximumf (addf (subf (statCol1 st) (mulf (mulf (fillN 0x40000000#32) (gat (segMean g (statCol0 st)) g)) (statCol0 st)))
    (mulf (gat (segMean g (statCol0 st)) g) (gat (segMean g (statCol0 st)) g))) (fillN 0x00000000#32)

/-- The kernel program's N × 2 array of per-row reciprocals (1/var, 1/vmean). -/
def kRecips (st : FVec Ideal S200000x3 .f32) (g : IVec S200000 32) : FVec Ideal S200000x2 .f32 :=
  gat2 (recip512 (clampEps (segMean g (kVarNode st g)))) (recip512 (clampEps (segMean g (statCol2 st)))) g

end Cert.Shared

end
-- ==== Proof.KHost.lean ====
/-
  What the per-graph host arithmetic between the two regions leaves in the three one-column arrays the normalising
  region reads — the per-row graph mean, and the per-row reciprocals of the graph variance and of the graph vector
  norm — as the shared whole-array functions of the packed statistics and the graph ids.
-/
import proofs.«150193_j37254546325938_2_alg».proof.Proof.Gen.KernelIdeal.Frame
import proofs.«150193_j37254546325938_2_alg».proof.Proof.Shared
import Idealize.ShloMosaic.Lib.StableHlo.Run

set_option maxRecDepth 16384

noncomputable section

namespace Cert.KernelIdeal.KHost

open Idealize.ShloMosaic Idealize.ShloMosaic.TcCoe Idealize.ShloMosaic.StableHlo Idealize.SL.Sem Cert.KernelIdeal Cert.KernelIdeal.Gen Cert.Shared

variable (m : (ℓ : Loc nD τ sig) → Buf (Elt Ideal) ℓ) (ρ : Dev nD → PrngReg)

/-- The per-row graph mean column. -/
theorem V3_v59 (c : Dev nD) : V3 m ρ c main_v59
    = colOf (gat (segMean (W2 m ρ c (Proc.devRef .tc main_arg2)) (statCol0 (W2 m ρ c (Proc.devRef .tc main_v1)))) (W2 m ρ c (Proc.devRef .tc main_arg2))) := by
  show StableHlo.after hostOps1 (W2 m ρ c) (Proc.devRef .tc main_v59) = _
  after_results_simp
  rfl

/-! ## The reciprocal columns, read in three stretches

The host arithmetic is a left fold over its operations, so it can be cut anywhere: the first 29 operations end at the
per-row graph mean, the next 10 at the per-row variance stream, and the rest build the two reciprocal tables and spread
them to the rows.  Each stretch is read over an arbitrary starting valuation `X`. -/

/-- The whole line cut after `n` operations. -/
theorem after_cut (n : Nat) (L : List (HloOp τ sig (Elt Ideal))) (V : Valuation τ sig (Elt Ideal)) :
    StableHlo.after L V = StableHlo.after (L.drop n) (StableHlo.after (L.take n) V) := by
  conv_lhs => rw [← List.take_append_drop n L]
  induction (L.take n) generalizing V with
  | nil => rfl
  | cons op ops ih => exact ih (op.result V)

abbrev headOps : List (HloOp τ sig (Elt Ideal)) := (hostOps1 (F := Ideal)).take 29
abbrev midOps : List (HloOp τ sig (Elt Ideal)) := ((hostOps1 (F := Ideal)).drop 29).take 10
abbrev tailOps : List (HloOp τ sig (Elt Ideal)) := ((hostOps1 (F := Ideal)).drop 29).drop 10

theorem cut3 (V : Valuation τ sig (Elt Ideal)) :
    StableHlo.after hostOps1 V = StableHlo.after tailOps (StableHlo.after midOps (StableHlo.after headOps V)) := by
  rw [after_cut 29 hostOps1 V, after_cut 10 (List.drop 29 hostOps1) _]

section Stretches
variable (X : Valuation τ sig (Elt Ideal))

theorem head_v24 : StableHlo.after headOps X (Proc.devRef .tc main_v24)
    = gat (segMean (X (Proc.devRef .tc main_arg2)) (statCol0 (X (Proc.devRef .tc main_v1)))) (X (Proc.devRef .tc main_arg2)) := by
  simp only [headOps, hostOps1, List.take_succ_cons, List.take_zero]
  after_results_simp
  rfl
theorem head_v3 : StableHlo.after headOps X (Proc.devRef .tc main_v3) = statCol0 (X (Proc.devRef .tc main_v1)) := by
  simp only [headOps, hostOps1, List.take_succ_cons, List.take_zero]
  after_results_simp
  rfl
theorem head_v5 : StableHlo.after headOps X (Proc.devRef .tc main_v5) = statCol1 (X (Proc.devRef .tc main_v1)) := by
  simp only [headOps, hostOps1, List.take_succ_cons, List.take_zero]
  after_results_simp
  rfl
theorem head_v7 : StableHlo.after headOps X (Proc.devRef .tc main_v7) = statCol2 (X (Proc.devRef .tc main_v1)) := by
  simp only [headOps, hostOps1, List.take_succ_cons, List.take_zero]
  after_results_simp
  rfl
theorem head_v13 : StableHlo.after headOps X (Proc.devRef .tc main_v13) = counts (X (Proc.devRef .tc main_arg2)) := by
  simp only [headOps, hostOps1, List.take_succ_cons, List.take_zero]
  after_results_simp
  rfl
theorem head_arg2 : StableHlo.after headOps X (Proc.devRef .tc main_arg2) = X (Proc.devRef .tc main_arg2) := by
  simp only [headOps, hostOps1, List.take_succ_cons, List.take_zero]
  after_results_simp

theorem mid_v32 : StableHlo.after midOps X (Proc.devRef .tc main_v32)
    = maximumf (addf (subf (X (Proc.devRef .tc main_v5)) (mulf (mulf (fillN 0x40000000#32) (X (Proc.devRef .tc main_v24))) (X (Proc.devRef .tc main_v3))))
        (mulf (X (Proc.devRef .tc main_v24)) (X (Proc.devRef .tc main_v24)))) (fillN 0x00000000#32) := by
  simp only [midOps, hostOps1, List.drop_succ_cons, List.drop_zero, List.take_succ_cons, List.take_zero]
  after_results_simp
  rfl
theorem mid_v7 : StableHlo.after midOps X (Proc.devRef .tc main_v7) = X (Proc.devRef .tc main_v7) := by
  simp only [midOps, hostOps1, List.drop_succ_cons, List.drop_zero, List.take_succ_cons, List.take_zero]
  after_results_simp
theorem mid_v13 : StableHlo.after midOps X (Proc.devRef .tc main_v13) = X (Proc.devRef .tc main_v13) := by
  simp only [midOps, hostOps1, List.drop_succ_cons, List.drop_zero, List.take_succ_cons, List.take_zero]
  after_results_simp
theorem mid_arg2 : StableHlo.after midOps X (Proc.devRef .tc main_arg2) = X (Proc.devRef .tc main_arg2) := by
  simp only [midOps, hostOps1, List.drop_succ_cons, List.drop_zero, List.take_succ_cons, List.take_zero]
  after_results_simp

/-- The N × 2 array of reciprocals the last stretch gathers, over its starting valuation. -/
abbrev tailRecips : FVec Ideal S200000x2 .f32 :=
  gat2 (recip512 (clampEps (Host.divf (F := Ideal) (segSum (X (Proc.devRef .tc main_arg2)) (X (Proc.devRef .tc main_v32))) (X (Proc.devRef .tc main_v13)))))
    (recip512 (clampEps (Host.divf (F := Ideal) (segSum (X (Proc.devRef .tc main_arg2)) (X (Proc.devRef .tc main_v7))) (X (Proc.devRef .tc main_v13)))))
    (X (Proc.devRef .tc main_arg2))

theorem tail_v60 : StableHlo.after tailOps X (Proc.devRef .tc main_v60)
    = extractStridedSlice S200000x1 ![0, 0] (tailRecips X) Facts₀.slices_S200000x2_S200000x1_0_0 := by
  simp only [tailOps, hostOps1, List.drop_succ_cons, List.drop_zero]
  after_results_simp
  rfl
theorem tail_v61 : StableHlo.after tailOps X (Proc.devRef .tc main_v61)
    = extractStridedSlice S200000x1 ![0, 1] (tailRecips X) Facts₀.slices_S200000x2_S200000x1_0_1 := by
  simp only [tailOps, hostOps1, List.drop_succ_cons, List.drop_zero]
  after_results_simp
  rfl

end Stretches

/-- The last stretch's reciprocals, started from the first two stretches' results, are the shared function of the
    statistics and the graph ids. -/
theorem tailRecips_eq (V : Valuation τ sig (Elt Ideal)) :
    tailRecips (StableHlo.after midOps (StableHlo.after headOps V))
      = kRecips (V (Proc.devRef .tc main_v1)) (V (Proc.devRef .tc main_arg2)) := by
  unfold tailRecips
  rw [mid_arg2, mid_v32, mid_v13, mid_v7, head_arg2, head_v5, head_v24, head_v3, head_v13, head_v7]
  rfl

/-- The per-row reciprocal graph variance column. -/
theorem V3_v60 (c : Dev nD) : V3 m ρ c main_v60
    = extractStridedSlice S200000x1 ![0, 0] (kRecips (W2 m ρ c (Proc.devRef .tc main_v1)) (W2 m ρ c (Proc.devRef .tc main_arg2))) Facts₀.slices_S200000x2_S200000x1_0_0 := by
  show StableHlo.after hostOps1 (W2 m ρ c) (Proc.devRef .tc main_v60) = _
  rw [cut3, tail_v60, tailRecips_eq]

/-- The per-row reciprocal graph vector-norm column. -/
theorem V3_v61 (c : Dev nD) : V3 m ρ c main_v61
    = extractStridedSlice S200000x1 ![0, 1] (kRecips (W2 m ρ c (Proc.devRef .tc main_v1)) (W2 m ρ c (Proc.devRef .tc main_arg2))) Facts₀.slices_S200000x2_S200000x1_0_1 := by
  show StableHlo.after hostOps1 (W2 m ρ c) (Proc.devRef .tc main_v61) = _
  rw [cut3, tail_v61, tailRecips_eq]

/-! ## Buffers the host arithmetic and the regions leave as they were -/

theorem W1_arg (c : Dev nD) (b : Ref sig .tc) (hb : b ≠ main_v0) : W1 m ρ c (Proc.devRef .tc b) = m ((c : Thread nD τ).loc b) := by
  show StableHlo.after hostOps0 (W0 m ρ c) (Proc.devRef .tc b) = _
  simp only [after_cons, after_nil]
  rw [reshape_result_ne]
  exact hb

theorem W1_v0 (c : Dev nD) : W1 m ρ c (Proc.devRef .tc main_v0)
    = shapeCast S200000x384 (m ((c : Thread nD τ).loc main_arg1)) Facts₀.shapeCasts_S200000x3x128_S200000x384 := by
  show StableHlo.after hostOps0 (W0 m ρ c) (Proc.devRef .tc main_v0) = _
  after_results
  rfl

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg m ρ c main_arg0 (by decide))

theorem W2_v0 (c : Dev nD) : W2 m ρ c (Proc.devRef .tc main_v0)
    = shapeCast S200000x384 (m ((c : Thread nD τ).loc main_arg1)) Facts₀.shapeCasts_S200000x3x128_S200000x384 :=
  ((W2_arr m ρ c 1).trans (((dat0 (V1 m ρ) c).arrAt_in 1 rfl _).trans (A_eq0 (V1 m ρ) c 1))).trans (W1_v0 m ρ c)

theorem W2_other (c : Dev nD) (b : Ref sig .tc) (hb : ∀ w, Pipeline.arrRef spec0 w ≠ b) (hb0 : b ≠ main_v0) :
    W2 m ρ c (Proc.devRef .tc b) = m ((c : Thread nD τ).loc b) :=
  (W2_of_ne m ρ c b hb).trans (W1_arg m ρ c b hb0)

theorem W2_arg2 (c : Dev nD) : W2 m ρ c (Proc.devRef .tc main_arg2) = m ((c : Thread nD τ).loc main_arg2) :=
  W2_other m ρ c main_arg2 (by decide) (by decide)
theorem W2_arg3 (c : Dev nD) : W2 m ρ c (Proc.devRef .tc main_arg3) = m ((c : Thread nD τ).loc main_arg3) :=
  W2_other m ρ c main_arg3 (by decide) (by decide)
theorem W2_arg4 (c : Dev nD) : W2 m ρ c (Proc.devRef .tc main_arg4) = m ((c : Thread nD τ).loc main_arg4) :=
  W2_other m ρ c main_arg4 (by decide) (by decide)

/-- The host arithmetic between the regions writes none of these. -/
theorem V3_keep (c : Dev nD) (b : Ref sig .tc) (hb : b = main_arg0 ∨ b = main_arg3 ∨ b = main_arg4 ∨ b = main_v0) :
    V3 m ρ c b = W2 m ρ c (Proc.devRef .tc b) := by
  show StableHlo.after hostOps1 (W2 m ρ c) (Proc.devRef .tc b) = _
  rcases hb with rfl | rfl | rfl | rfl <;> (after_results_simp)

end Cert.KernelIdeal.KHost

end
-- ==== Proof.Spec.lean ====
/-
  The mathematics both programs compute, stated once over the extended reals with literal extents: N = 200000 rows,
  128 scalar channels, 3 × 128 vector channels flattened to 384 columns.
  Per row: the mean of the scalar channels, the mean of their squares, and the mean over channel k of the squared
  length of the 3-vector (v[n,0,k], v[n,1,k], v[n,2,k]).  The normalised outputs are
  ((s − mean_g) · (1/var_g)) · w + b  and  v · (1/vmean_g), with the per-row graph statistics given as one-column
  matrices.
-/
import Idealize.ShloMosaic.PureOps.Ideal
import Idealize.ShloMosaic.Lib.ValueIdx

noncomputable section

namespace Cert.Spec

open Idealize.ShloMosaic Idealize.ShloMosaic.ValueIdx
open scoped BigOperators

/-- The divisor 128 as the float pattern both programs carry. -/
abbrev c128 : EReal := Ideal.ofBits .f32 0x43000000#32

/-- Column `128·c + k` of a 384-column row: channel `k` of vector component `c`. -/
abbrev col (c : Fin 3) (k : Fin 128) : Fin 384 := ⟨128 * c.val + k.val, by have := c.isLt; have := k.isLt; omega⟩

/-- Mean of row `n`'s 128 scalar channels. -/
def rowMean (s : (⟨2, ![200000, 128]⟩ : Shape).Idx → EReal) (n : Fin 200000) : EReal :=
  Ideal.div (∑ k : Fin 128, s (ix2 n k)) c128

/-- Mean of the squares of row `n`'s 128 scalar channels. -/
def rowSqMean (s : (⟨2, ![200000, 128]⟩ : Shape).Idx → EReal) (n : Fin 200000) : EReal :=
  Ideal.div (∑ k : Fin 128, s (ix2 n k) * s (ix2 n k)) c128

/-- Mean over the 128 channels of the squared length of row `n`'s 3-vectors, the row flattened to 384 columns. -/
def rowVnorm (vf : (⟨2, ![200000, 384]⟩ : Shape).Idx → EReal) (n : Fin 200000) : EReal :=
  Ideal.div (∑ k : Fin 128, (vf (ix2 n (col 0 k)) * vf (ix2 n (col 0 k)) + vf (ix2 n (col 1 k)) * vf (ix2 n (col 1 k))
    + vf (ix2 n (col 2 k)) * vf (ix2 n (col 2 k)))) c128

/-- The three per-row statistics packed as the columns of an N × 3 array. -/
def statsAt (s : (⟨2, ![200000, 128]⟩ : Shape).Idx → EReal) (vf : (⟨2, ![200000, 384]⟩ : Shape).Idx → EReal)
    (n : Fin 200000) (j : Fin 3) : EReal :=
  if j.val = 0 then rowMean s n else if j.val = 1 then rowSqMean s n else rowVnorm vf n

def statsOf (s : (⟨2, ![200000, 128]⟩ : Shape).Idx → EReal) (vf : (⟨2, ![200000, 384]⟩ : Shape).Idx → EReal) :
    (⟨2, ![200000, 3]⟩ : Shape).Idx → EReal := fun i => statsAt s vf (i 0) (i 1)

/-- The normalised scalar output at `(n, k)`: centred by the row's graph mean, scaled by the row's reciprocal graph
    variance, then the affine map of channel `k`. -/
def soutAt (s : (⟨2, ![200000, 128]⟩ : Shape).Idx → EReal) (mean inv : (⟨2, ![200000, 1]⟩ : Shape).Idx → EReal)
    (w b : (⟨1, ![128]⟩ : Shape).Idx → EReal) (n : Fin 200000) (k : Fin 128) : EReal :=
  ((s (ix2 n k) - mean (ix2 n 0)) * inv (ix2 n 0)) * w (ix1 k) + b (ix1 k)

def soutOf (s : (⟨2, ![200000, 128]⟩ : Shape).Idx → EReal) (mean inv : (⟨2, ![200000, 1]⟩ : Shape).Idx → EReal)
    (w b : (⟨1, ![128]⟩ : Shape).Idx → EReal) : (⟨2, ![200000, 128]⟩ : Shape).Idx → EReal :=
  fun i => soutAt s mean inv w b (i 0) (i 1)

/-- The normalised vector output at `(n, q)` of the flattened row: scaled by the row's reciprocal graph vector norm. -/
def voutAt (vf : (⟨2, ![200000, 384]⟩ : Shape).Idx → EReal) (inv : (⟨2, ![200000, 1]⟩ : Shape).Idx → EReal)
    (n : Fin 200000) (q : Fin 384) : EReal :=
  vf (ix2 n q) * inv (ix2 n 0)

def voutOf (vf : (⟨2, ![200000, 384]⟩ : Shape).Idx → EReal) (inv : (⟨2, ![200000, 1]⟩ : Shape).Idx → EReal) :
    (⟨2, ![200000, 384]⟩ : Shape).Idx → EReal := fun i => voutAt vf inv (i 0) (i 1)

end Cert.Spec

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibConcat3.lean ====
/-
  A general fact about joining arrays: three pieces of one shape joined along an axis.
-/
import Idealize.ShloMosaic.Lib.Pipeline.Value

noncomputable section

namespace Cert.Lib

open Idealize.ShloMosaic

variable {α : Type}

/-- Three arrays of one shape `s₁`, of extent `K` along axis `a`, joined along that axis and read at an index `j`:
    the piece `n = j[a] / K` read at the index that has `j[a] % K` on the axis and `j`'s coordinates off it. -/
theorem concatenate_three_apply {t s₁ : Shape} (a : Fin t.rank) (p : Fin 3 → (s₁.Idx → α))
    (h : Shape.Concatenates [s₁, s₁, s₁] t a) (hr : s₁.rank = t.rank) (K : Nat) (hK : s₁.size (a.cast hr.symm) = K)
    (j : t.Idx) (n : Fin 3) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, p 0⟩, ⟨s₁, p 1⟩, ⟨s₁, p 2⟩] h j = p n i :=
  concatenate_ofFn_apply a p h hr K hK j n hn i hia hi

end Cert.Lib

end
-- ==== Proof.Region0Pay.lean ====
/-
  Region 0's body at an index: the N × 3 block of per-row statistics that the reduce kernel stores.

  For a block of 10000 rows, with the 128 scalar channels `x0` and the 384 flattened vector columns `x1`, the
  stored array has, in row r,
    column 0:  (∑ₖ x0[r,k]) / 128,
    column 1:  (∑ₖ x0[r,k]²) / 128,
    column 2:  (∑ₖ x1[r,k]² + x1[r,128+k]² + x1[r,256+k]²) / 128,
  each column a lane sum kept as a one-column matrix and divided by the constant column 128, and the three
  columns joined along the second axis.
-/
import proofs.«150193_j37254546325938_2_alg».proof.Proof.Gen.KernelIdeal.Skeleton
import proofs.«150193_j37254546325938_2_alg».proof.Proof.Spec
import proofs.«150193_j37254546325938_2_alg».proof.Proof.LibKeepdims
import proofs.«150193_j37254546325938_2_alg».proof.Proof.LibConcat3
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.ValueIdx
open scoped BigOperators

/-- Three one-column matrices joined along the second axis, read at `(r, j)`: column `j`'s entry of row `r`. -/
theorem concat_cols_apply {α : Type} {a : ℕ} (c0 c1 c2 : (⟨2, ![a, 1]⟩ : Shape).Idx → α)
    (h : Shape.Concatenates [(⟨2, ![a, 1]⟩ : Shape), ⟨2, ![a, 1]⟩, ⟨2, ![a, 1]⟩] ⟨2, ![a, 3]⟩ 1) (r : Fin a) (j : Fin 3) :
    concatenate ⟨2, ![a, 3]⟩ 1 [⟨⟨2, ![a, 1]⟩, c0⟩, ⟨⟨2, ![a, 1]⟩, c1⟩, ⟨⟨2, ![a, 1]⟩, c2⟩] h (ix2 r j)
      = if j.val = 0 then c0 (ix2 r (0 : Fin 1)) else if j.val = 1 then c1 (ix2 r (0 : Fin 1)) else c2 (ix2 r (0 : Fin 1)) := by
  have key : ∀ n : Fin 3, j = n →
      concatenate ⟨2, ![a, 3]⟩ 1 [⟨⟨2, ![a, 1]⟩, c0⟩, ⟨⟨2, ![a, 1]⟩, c1⟩, ⟨⟨2, ![a, 1]⟩, c2⟩] h (ix2 r j)
        = (![c0, c1, c2] : Fin 3 → ((⟨2, ![a, 1]⟩ : Shape).Idx → α)) n (ix2 r (0 : Fin 1)) := fun n hn =>
    Cert.Lib.concatenate_three_apply (t := ⟨2, ![a, 3]⟩) (s₁ := ⟨2, ![a, 1]⟩) (1 : Fin 2) ![c0, c1, c2] h rfl 1 rfl
      (ix2 r j) n (by subst hn; show j.val / 1 = j.val; omega) (ix2 r (0 : Fin 1)) (by show 0 = j.val % 1; omega)
      (fun b hb => by
        match b with
        | ⟨0, _⟩ => rfl
        | ⟨1, _⟩ => exact absurd rfl hb)
  match j with
  | ⟨0, _⟩ => exact key 0 rfl
  | ⟨1, _⟩ => exact key 1 rfl
  | ⟨2, _⟩ => exact key 2 rfl

/-- A block of 128 columns cut out of the 384-column row at column offset `off`, read at `(r, k)`: the row's column
    `off + k`. -/
theorem slice_cols_apply {α : Type} (x : S10000x384.Idx → α) (off : ℕ) (h : S10000x384.Slices ![0, off] S10000x128)
    (r : Fin 10000) (k : Fin 128) (q : Fin 384) (hq : q.val = off + k.val) :
    extractStridedSlice S10000x128 ![0, off] x h (ix2 r k) = x (ix2 r q) :=
  extractStridedSlice_apply _ x h (ix2 r k) (ix2 r q) fun a => by
    match a with
    | ⟨0, _⟩ => show r.val = 0 + r.val; omega
    | ⟨1, _⟩ => exact hq

/-- A lane sum kept as a one-column matrix and divided by the constant column 128: the row's mean. -/
theorem mean_col_apply (src : FVec Ideal S10000x128 .f32) (hr : S10000x128.Reduces [1] S10000) (hφ : FKind.Formats .f32)
    (hacc : (0x00000000#32 : BitVec 32) = FKind.add.neutral .f32 hφ) (hc : S10000.ShapeCasts S10000x1) (r : Fin 10000) (u : Fin 1) :
    divf (shapeCast S10000x1 (multiReduction .add [1] S10000 src 0x00000000#32 hr hφ hacc) hc)
        (broadcast S10000x1 (Scalar.ofBits (F := Ideal) .f32 0x43000000#32)) (ix2 r u)
      = Ideal.div (∑ k : Fin 128, src (ix2 r k)) Spec.c128 := by
  rw [divf_apply, broadcast_apply, Cert.Lib.Keepdims.shapeCast_a_a1_apply, Cert.Lib.Keepdims.rowSum_apply]
  rfl

/-- The reduce kernel's stored block at `(r, j)`: the mean of row `r`'s scalar channels, the mean of their squares, and
    the mean over the channels of the squared length of the row's 3-vectors. -/
theorem pay_apply (x0 : Vec Ideal S10000x128 .f32) (x1 : Vec Ideal S10000x384 .f32) (r : Fin 10000) (j : Fin 3) :
    Gen.k0_pay1 (F := Ideal) x0 x1 (ix2 r j)
      = (if j.val = 0 then Ideal.div (∑ k : Fin 128, x0 (ix2 r k)) Spec.c128
         else if j.val = 1 then Ideal.div (∑ k : Fin 128, x0 (ix2 r k) * x0 (ix2 r k)) Spec.c128
         else Ideal.div (∑ k : Fin 128, (x1 (ix2 r (Spec.col 0 k)) * x1 (ix2 r (Spec.col 0 k))
            + x1 (ix2 r (Spec.col 1 k)) * x1 (ix2 r (Spec.col 1 k))
            + x1 (ix2 r (Spec.col 2 k)) * x1 (ix2 r (Spec.col 2 k)))) Spec.c128) := by
  unfold Gen.k0_pay1
  dsimp only
  refine (concat_cols_apply _ _ _ _ r j).trans ?_
  refine if_congr Iff.rfl ((mean_col_apply _ _ _ _ _ r 0).trans rfl)
    (if_congr Iff.rfl ((mean_col_apply _ _ _ _ _ r 0).trans rfl) ((mean_col_apply _ _ _ _ _ r 0).trans ?_))
  refine congrArg (fun z => Ideal.div z Spec.c128) (Finset.sum_congr rfl fun k _ => ?_)
  rw [addf_apply, addf_apply, mulf_apply, mulf_apply, mulf_apply, shapeCast_self,
    slice_cols_apply x1 0 _ r k (Spec.col 0 k) (by show 128 * 0 + k.val = 0 + k.val; omega),
    slice_cols_apply x1 128 _ r k (Spec.col 1 k) (by show 128 * 1 + k.val = 128 + k.val; omega),
    slice_cols_apply x1 256 _ r k (Spec.col 2 k) (by show 128 * 2 + k.val = 256 + k.val; omega)]

end Cert.KernelIdeal.R0

end
-- ==== Proof.Region0.lean ====
/-
  Region 0, blocks to array: after the reduce kernel's twenty grid points the N × 3 statistics array holds, in row n,
  the mean of row n's 128 scalar channels, the mean of their squares, and the mean over the channels of the squared
  length of the row's 3-vectors.

  Point t of the grid reads rows 10000·t … 10000·t + 9999 of the two inputs and writes the same rows of the output;
  the body's stored block, read at a row and a column, is the row's statistic; the twenty blocks cover the array.
-/
import proofs.«150193_j37254546325938_2_alg».proof.Proof.Gen.KernelIdeal.Frame
import proofs.«150193_j37254546325938_2_alg».proof.Proof.Region0Pay
import Idealize.ShloMosaic.Lib.Pipeline.Value

set_option maxRecDepth 16384

noncomputable section

namespace Cert.KernelIdeal.R0

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The body's accesses start at the block's origin. -/
theorem origin : (![0, 0] : Fin 2 → Nat) = fun _ => 0 := funext fun a => by fin_cases a <;> rfl

/-- The three index maps, decided over the grid: point `t` has block row `t` and block column 0 in every window. -/
theorem index_eq : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Point `t`'s block of the scalar channels is rows `10000·t …` of the array. -/
theorem scalars_block (c : Dev nD) (t : Fin cfg0.N) (p : Fin 10000) (k : Fin 128) (n : Fin 200000)
    (hn : n.val = t.val * 10000 + p.val) :
    (Gen.iblk0 (F := Ideal) V c 0 t : Vec Ideal S10000x128 .f32) (ix2 p k)
      = (V c main_arg0 : S200000x128.Idx → EReal) (ix2 n k) := by
  obtain ⟨e0, e1, -, -, -, -⟩ := index_eq t
  unfold Gen.iblk0
  rw [View.read_apply]
  show V c main_arg0 (((cfg0.win 0).blk t).view.emb (ix2 p k)) = V c main_arg0 (ix2 n k)
  congr 1
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- Point `t`'s block of the flattened vector channels is rows `10000·t …` of the array. -/
theorem vectors_block (c : Dev nD) (t : Fin cfg0.N) (p : Fin 10000) (q : Fin 384) (n : Fin 200000)
    (hn : n.val = t.val * 10000 + p.val) :
    (Gen.iblk0 (F := Ideal) V c 1 t : Vec Ideal S10000x384 .f32) (ix2 p q)
      = (V c main_v0 : S200000x384.Idx → EReal) (ix2 n q) := by
  obtain ⟨-, -, e0, e1, -, -⟩ := index_eq t
  unfold Gen.iblk0
  rw [View.read_apply]
  show V c main_v0 (((cfg0.win 1).blk t).view.emb (ix2 p q)) = V c main_v0 (ix2 n q)
  congr 1
  funext a
  apply Fin.ext
  match a with
  | ⟨0, _⟩ => show win0_1.index t (0 : Fin 2) * 10000 + 1 * p.val = n.val; rw [e0, hn]; omega
  | ⟨1, _⟩ => show win0_1.index t (1 : Fin 2) * 384 + 1 * q.val = q.val; rw [e1]; omega

/-- The stored block of two input blocks that are rows `10000·b …` of the arrays `s` and `vf`: at `(p, j)`, statistic
    `j` of row `10000·b + p`. -/
theorem block_stats (x0 : Vec Ideal S10000x128 .f32) (x1 : Vec Ideal S10000x384 .f32)
    (s : S200000x128.Idx → EReal) (vf : S200000x384.Idx → EReal) (p : Fin 10000) (n : Fin 200000)
    (h0 : ∀ k : Fin 128, x0 (ix2 p k) = s (ix2 n k)) (h1 : ∀ q : Fin 384, x1 (ix2 p q) = vf (ix2 n q)) (j : Fin 3) :
    Gen.k0_pay1 (F := Ideal) x0 x1 (ix2 p j) = Spec.statsAt s vf n j := by
  rw [pay_apply]
  unfold Spec.statsAt Spec.rowMean Spec.rowSqMean Spec.rowVnorm
  simp only [h0, h1]

/-- WHAT POINT `t` WRITES BACK is block `t` of the statistics of the two input arrays as the region finds them. -/
theorem flushed_eq (c : Dev nD) (t : Fin cfg0.N) :
    (Gen.dat0 (F := Ideal) V c).flushed 2 t
      = ((cfg0.win 2).blk t).view.read (Elt Ideal) (Spec.statsOf (V c main_arg0) (V c main_v0)) := by
  show (cfg0.win 2).cut (grid0.coords t) ((Gen.dat0 (F := Ideal) V c).after 2 t) = _
  rw [Gen.after0_2]
  unfold Gen.out0_2
  rw [View.canon_unit_zero origin]
  simp only [View.ld_unit_zero (S := S10000x128) origin, View.ld_unit_zero (S := S10000x384) origin]
  obtain ⟨-, -, -, -, e0, e1⟩ := index_eq t
  have hN : cfg0.N = 20 := Gen.N_0
  have ht : t.val < 20 := hN ▸ t.isLt
  funext y
  obtain ⟨p, j, rfl⟩ : ∃ (p : Fin 10000) (j : Fin 3), y = ix2 p j := ⟨y 0, y 1, eq_ix2 y⟩
  have hp : p.val < 10000 := p.isLt
  let n : Fin 200000 := ⟨t.val * 10000 + p.val, by omega⟩
  have hemb : ((cfg0.win 2).blk t).view.emb (ix2 p j) = ix2 n j := by
    funext a
    apply Fin.ext
    match a with
    | ⟨0, _⟩ => show win0_2.index t (0 : Fin 2) * 10000 + 1 * p.val = t.val * 10000 + p.val; rw [e0]; omega
    | ⟨1, _⟩ => show win0_2.index t (1 : Fin 2) * 3 + 1 * j.val = j.val; rw [e1]; omega
  show Gen.k0_pay1 (F := Ideal) (Gen.iblk0 V c 0 t) (Gen.iblk0 V c 1 t) (ix2 p j)
    = Spec.statsOf (V c main_arg0) (V c main_v0) (((cfg0.win 2).blk t).view.emb (ix2 p j))
  rw [hemb]
  exact block_stats (Gen.iblk0 V c 0 t) (Gen.iblk0 V c 1 t) (V c main_arg0) (V c main_v0) p n
    (fun k => scalars_block V c t p k n rfl) (fun q => vectors_block V c t p q n rfl) j

/-- An index of the array is in point `t`'s block iff each coordinate is in the block's range on its axis. -/
theorem mem_block (t : Fin cfg0.N) (i : S200000x3.Idx) :
    i ∈ ((cfg0.win 2).blk t).view.set ↔ ∀ a : Fin 2, win0_2.index t a * S10000x3.size a ≤ (i a).val
      ∧ (i a).val < win0_2.index t a * S10000x3.size a + S10000x3.size a := by
  show i ∈ ((View.whole main_v1).slice (win0_2.rect t)).set ↔ _
  rw [View.set_slice_whole, Rect.mem_set_unit]
  exact Iff.rfl

/-- Row `r` of the array is in the block of point `r / 10000`. -/
theorem covered (i : S200000x3.Idx) :
    ∃ t : Fin cfg0.N, (cfg0.win 2).flush t = true ∧ i ∈ ((cfg0.win 2).blk t).view.set := by
  have hN : cfg0.N = 20 := Gen.N_0
  have hi0 : (i 0).val < 200000 := (i 0).isLt
  have hi1 : (i 1).val < 3 := (i 1).isLt
  let t : Fin cfg0.N := ⟨(i 0).val / 10000, by rw [hN]; omega⟩
  obtain ⟨-, -, -, -, e0, e1⟩ := index_eq t
  have e0' : win0_2.index t (0 : Fin 2) = (i 0).val / 10000 := e0
  refine ⟨t, Gen.flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e0']; omega
  | ⟨1, _⟩ =>
    show win0_2.index t (1 : Fin 2) * 3 ≤ (i 1).val ∧ (i 1).val < win0_2.index t (1 : Fin 2) * 3 + 3
    rw [e1]; omega

/-- THE ARRAY after the region: the per-row statistics of the two input arrays as the region finds them. -/
theorem stats_final (c : Dev nD) :
    (Gen.dat0 (F := Ideal) V c).arrAt 2 cfg0.N = Spec.statsOf (V c main_arg0) (V c main_v0) :=
  (Gen.dat0 (F := Ideal) V c).arrAt_eq_of_cover 2 (Spec.statsOf (V c main_arg0) (V c main_v0))
    (fun t _ => flushed_eq V c t) covered

end Cert.KernelIdeal.R0

end
-- ==== Proof.Region1Pay.lean ====
/-
  The normalisation kernel's two stored values, read at an index of the block: with r a row of the block, k a scalar
  channel and q a flattened vector column,
    scalar output (r, k) = ((s(r,k) − mean(r,0)) · inv(r,0)) · w(k) + b(k),
    vector output (r, q) = v(r,q) · invv(r,0).
  The column operands [5000,1] are broadcast along the channels, the channel vectors [128] along the rows.
-/
import proofs.«150193_j37254546325938_2_alg».proof.Proof.Gen.KernelIdeal.Skeleton
import proofs.«150193_j37254546325938_2_alg».proof.Proof.LibKeepdims
import Idealize.ShloMosaic.Lib.Pipeline.Value
import Idealize.ShloMosaic.Lib.ValueIdx
import Idealize.ShloMosaic.Lib.ValueLayout

noncomputable section

namespace Cert.KernelIdeal.R1

open Cert.KernelIdeal Cert.KernelIdeal.Gen Idealize.ShloMosaic Idealize.ShloMosaic.ValueIdx

/-- A channel vector [128] laid as one row [1,128] and repeated over 5000 rows reads, at (r, k), its entry k. -/
theorem rowvec_apply (x : Vec Ideal S128 .f32) (r : Fin 5000) (k : Fin 128) :
    broadcastTo S5000x128 (shapeCast S1x128 x shapeCasts_S128_S1x128) broadcasts_S1x128_S5000x128 (ix2 r k) = x (ix1 k) := by
  rw [broadcastTo_1b_ab_apply, shapeCast_a_1a_apply]

/-- A column [5000,1] repeated over 128 channels reads, at (r, k), the column's entry of row r. -/
theorem col128_apply (x : Vec Ideal S5000x1 .f32) (r : Fin 5000) (k : Fin 128) :
    broadcastTo S5000x128 x broadcasts_S5000x1_S5000x128 (ix2 r k) = x (ix2 r (0 : Fin 1)) :=
  Cert.Lib.Keepdims.broadcastTo_a1_ab_apply x broadcasts_S5000x1_S5000x128 r k

/-- A column [5000,1] repeated over 384 columns reads, at (r, q), the column's entry of row r. -/
theorem col384_apply (x : Vec Ideal S5000x1 .f32) (r : Fin 5000) (q : Fin 384) :
    broadcastTo S5000x384 x broadcasts_S5000x1_S5000x384 (ix2 r q) = x (ix2 r (0 : Fin 1)) :=
  Cert.Lib.Keepdims.broadcastTo_a1_ab_apply x broadcasts_S5000x1_S5000x384 r q

/-- The scalar output's stored value at (r, k). -/
theorem pay1_apply (x0 : Vec Ideal S5000x128 .f32) (x3 x5 : Vec Ideal S5000x1 .f32) (x9 x10 : Vec Ideal S128 .f32)
    (r : Fin 5000) (k : Fin 128) :
    Gen.k1_pay1 (F := Ideal) x0 x3 x5 x9 x10 (ix2 r k)
      = ((x0 (ix2 r k) - x3 (ix2 r (0 : Fin 1))) * x5 (ix2 r (0 : Fin 1))) * x9 (ix1 k) + x10 (ix1 k) := by
  unfold Gen.k1_pay1
  simp only [shapeCast_self]
  rw [addf_apply, mulf_apply, mulf_apply, subf_apply, rowvec_apply, rowvec_apply, col128_apply, col128_apply]

/-- The vector output's stored value at (r, q). -/
theorem pay2_apply (x1 : Vec Ideal S5000x384 .f32) (x7 : Vec Ideal S5000x1 .f32) (r : Fin 5000) (q : Fin 384) :
    Gen.k1_pay2 (F := Ideal) x1 x7 (ix2 r q) = x1 (ix2 r q) * x7 (ix2 r (0 : Fin 1)) := by
  unfold Gen.k1_pay2
  simp only [shapeCast_self]
  rw [mulf_apply, col384_apply]

end Cert.KernelIdeal.R1

end
-- ==== Proof.Region1.lean ====
/-
  The normalisation region's two outputs as whole arrays.  The region sweeps 40 row blocks of 5000 rows; at block t it
  reads rows 5000·t … 5000·t + 4999 of the scalar features, of the flattened vector features and of the three per-row
  statistics columns, the two channel vectors whole, and writes the same rows of the two outputs.  Row r of block t is
  row n = 5000·t + r of the arrays, so what block t writes is the restriction to its rows of ONE function of the region's
  input arrays:
      scalar output (n, k) = ((s(n,k) − mean(n,0)) · inv(n,0)) · w(k) + b(k),
      vector output (n, q) = v(n,q) · invv(n,0);
  the 40 blocks cover every row, so the arrays end holding exactly these functions.
-/
import proofs.«150193_j37254546325938_2_alg».proof.Proof.Gen.KernelIdeal.Frame
import proofs.«150193_j37254546325938_2_alg».proof.Proof.Spec
import proofs.«150193_j37254546325938_2_alg».proof.Proof.Region1Pay
import Idealize.ShloMosaic.Lib.Pipeline.Value

noncomputable section

namespace Cert.KernelIdeal.R1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ## Where block t sits -/

/-- The index maps over the grid: every row-blocked window is at block row t, column block 0; the two channel vectors
    stay at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 1) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! ## The input blocks as rows of the arrays -/

/-- Row r of the scalar features' block t is row 5000·t + r of the array. -/
theorem blk_s (c : Dev nD) (t : Fin cfg1.N) (r : Fin 5000) (k : Fin 128) (n : Fin 200000) (hn : n.val = t.val * 5000 + r.val) :
    (Gen.iblk1 (F := Ideal) V c 0 t : Vec Ideal S5000x128 .f32) (ix2 r k) = (V c main_arg0 : S200000x128.Idx → EReal) (ix2 n k) := by
  obtain ⟨e0, e1, -⟩ := block_index t
  unfold Gen.iblk1
  rw [View.read_apply]
  show V c main_arg0 _ = V c main_arg0 _
  congr 1
  funext a
  apply Fin.ext
  match a with
  | ⟨0, _⟩ => show win1_0.index t (0 : Fin 2) * 5000 + 1 * r.val = n.val; omega
  | ⟨1, _⟩ => show win1_0.index t (1 : Fin 2) * 128 + 1 * k.val = k.val; omega

/-- Row r of the flattened vector features' block t is row 5000·t + r of the array. -/
theorem blk_v (c : Dev nD) (t : Fin cfg1.N) (r : Fin 5000) (q : Fin 384) (n : Fin 200000) (hn : n.val = t.val * 5000 + r.val) :
    (Gen.iblk1 (F := Ideal) V c 1 t : Vec Ideal S5000x384 .f32) (ix2 r q) = (V c main_v0 : S200000x384.Idx → EReal) (ix2 n q) := by
  obtain ⟨-, -, e0, e1, -⟩ := block_index t
  unfold Gen.iblk1
  rw [View.read_apply]
  show V c main_v0 _ = V c main_v0 _
  congr 1
  funext a
  apply Fin.ext
  match a with
  | ⟨0, _⟩ => show win1_1.index t (0 : Fin 2) * 5000 + 1 * r.val = n.val; omega
  | ⟨1, _⟩ => show win1_1.index t (1 : Fin 2) * 384 + 1 * q.val = q.val; omega

/-- Row r of the graph-mean column's block t is row 5000·t + r of the column. -/
theorem blk_mean (c : Dev nD) (t : Fin cfg1.N) (r : Fin 5000) (n : Fin 200000) (hn : n.val = t.val * 5000 + r.val) :
    (Gen.iblk1 (F := Ideal) V c 2 t : Vec Ideal S5000x1 .f32) (ix2 r (0 : Fin 1)) = (V c main_v59 : S200000x1.Idx → EReal) (ix2 n (0 : Fin 1)) := by
  obtain ⟨-, -, -, -, e0, e1, -⟩ := block_index t
  unfold Gen.iblk1
  rw [View.read_apply]
  show V c main_v59 _ = V c main_v59 _
  congr 1
  funext a
  apply Fin.ext
  match a with
  | ⟨0, _⟩ => show win1_2.index t (0 : Fin 2) * 5000 + 1 * r.val = n.val; omega
  | ⟨1, _⟩ => show win1_2.index t (1 : Fin 2) * 1 + 1 * 0 = 0; omega

/-- Row r of the reciprocal-variance column's block t is row 5000·t + r of the column. -/
theorem blk_inv (c : Dev nD) (t : Fin cfg1.N) (r : Fin 5000) (n : Fin 200000) (hn : n.val = t.val * 5000 + r.val) :
    (Gen.iblk1 (F := Ideal) V c 3 t : Vec Ideal S5000x1 .f32) (ix2 r (0 : Fin 1)) = (V c main_v60 : S200000x1.Idx → EReal) (ix2 n (0 : Fin 1)) := by
  obtain ⟨-, -, -, -, -, -, e0, e1, -⟩ := block_index t
  unfold Gen.iblk1
  rw [View.read_apply]
  show V c main_v60 _ = V c main_v60 _
  congr 1
  funext a
  apply Fin.ext
  match a with
  | ⟨0, _⟩ => show win1_3.index t (0 : Fin 2) * 5000 + 1 * r.val = n.val; omega
  | ⟨1, _⟩ => show win1_3.index t (1 : Fin 2) * 1 + 1 * 0 = 0; omega

/-- Row r of the reciprocal-vector-norm column's block t is row 5000·t + r of the column. -/
theorem blk_invv (c : Dev nD) (t : Fin cfg1.N) (r : Fin 5000) (n : Fin 200000) (hn : n.val = t.val * 5000 + r.val) :
    (Gen.iblk1 (F := Ideal) V c 4 t : Vec Ideal S5000x1 .f32) (ix2 r (0 : Fin 1)) = (V c main_v61 : S200000x1.Idx → EReal) (ix2 n (0 : Fin 1)) := by
  obtain ⟨-, -, -, -, -, -, -, -, e0, e1, -⟩ := block_index t
  unfold Gen.iblk1
  rw [View.read_apply]
  show V c main_v61 _ = V c main_v61 _
  congr 1
  funext a
  apply Fin.ext
  match a with
  | ⟨0, _⟩ => show win1_4.index t (0 : Fin 2) * 5000 + 1 * r.val = n.val; omega
  | ⟨1, _⟩ => show win1_4.index t (1 : Fin 2) * 1 + 1 * 0 = 0; omega

/-- The weight vector's block at every point is the whole vector. -/
theorem blk_w (c : Dev nD) (t : Fin cfg1.N) (k : Fin 128) :
    (Gen.iblk1 (F := Ideal) V c 5 t : Vec Ideal S128 .f32) (ix1 k) = (V c main_arg3 : S128.Idx → EReal) (ix1 k) := by
  obtain ⟨-, -, -, -, -, -, -, -, -, -, e0, -⟩ := block_index t
  unfold Gen.iblk1
  rw [View.read_apply]
  show V c main_arg3 _ = V c main_arg3 _
  congr 1
  funext a
  apply Fin.ext
  match a with
  | ⟨0, _⟩ => show win1_5.index t (0 : Fin 1) * 128 + 1 * k.val = k.val; omega

/-- The bias vector's block at every point is the whole vector. -/
theorem blk_b (c : Dev nD) (t : Fin cfg1.N) (k : Fin 128) :
    (Gen.iblk1 (F := Ideal) V c 6 t : Vec Ideal S128 .f32) (ix1 k) = (V c main_arg4 : S128.Idx → EReal) (ix1 k) := by
  obtain ⟨-, -, -, -, -, -, -, -, -, -, -, e0, -⟩ := block_index t
  unfold Gen.iblk1
  rw [View.read_apply]
  show V c main_arg4 _ = V c main_arg4 _
  congr 1
  funext a
  apply Fin.ext
  match a with
  | ⟨0, _⟩ => show win1_6.index t (0 : Fin 1) * 128 + 1 * k.val = k.val; omega

/-! ## One entry of a block, from blocks whose rows are rows of the arrays -/

/-- The scalar output's stored value at (r, k) is the specification's entry (n, k) when row r of each block is row n of its
    array. -/
theorem sout_point (x0 : Vec Ideal S5000x128 .f32) (x2 x3 : Vec Ideal S5000x1 .f32) (x5 x6 : Vec Ideal S128 .f32)
    (s : S200000x128.Idx → EReal) (mean inv : S200000x1.Idx → EReal) (w b : S128.Idx → EReal)
    (r : Fin 5000) (k : Fin 128) (n : Fin 200000)
    (h0 : x0 (ix2 r k) = s (ix2 n k)) (h2 : x2 (ix2 r (0 : Fin 1)) = mean (ix2 n (0 : Fin 1)))
    (h3 : x3 (ix2 r (0 : Fin 1)) = inv (ix2 n (0 : Fin 1))) (h5 : x5 (ix1 k) = w (ix1 k)) (h6 : x6 (ix1 k) = b (ix1 k)) :
    Gen.k1_pay1 (F := Ideal) x0 x2 x3 x5 x6 (ix2 r k) = Cert.Spec.soutAt s mean inv w b n k := by
  rw [pay1_apply, h0, h2, h3, h5, h6]
  rfl

/-- The vector output's stored value at (r, q) is the specification's entry (n, q) when row r of each block is row n of its
    array. -/
theorem vout_point (x1 : Vec Ideal S5000x384 .f32) (x4 : Vec Ideal S5000x1 .f32)
    (vf : S200000x384.Idx → EReal) (invv : S200000x1.Idx → EReal)
    (r : Fin 5000) (q : Fin 384) (n : Fin 200000)
    (h1 : x1 (ix2 r q) = vf (ix2 n q)) (h4 : x4 (ix2 r (0 : Fin 1)) = invv (ix2 n (0 : Fin 1))) :
    Gen.k1_pay2 (F := Ideal) x1 x4 (ix2 r q) = Cert.Spec.voutAt vf invv n q := by
  rw [pay2_apply, h1, h4]
  rfl

/-! ## What block t writes back -/

/-- Row 5000·t + r is a row of the arrays. -/
theorem row_lt (t : Fin cfg1.N) (r : Fin 5000) : t.val * 5000 + r.val < 200000 := by
  have hN : grid1.N = 40 := Gen.N_1
  have ht : t.val < grid1.N := t.isLt
  have hr := r.isLt
  omega

/-- Point t writes back block t of the scalar output's function of the region's input arrays. -/
theorem sout_flushed (c : Dev nD) (t : Fin cfg1.N) :
    (Gen.dat1 (F := Ideal) V c).flushed 7 t = ((cfg1.win 7).blk t).view.read (Elt Ideal)
      (Cert.Spec.soutOf (V c main_arg0) (V c main_v59) (V c main_v60) (V c main_arg3) (V c main_arg4)) := by
  show (cfg1.win 7).cut (grid1.coords t) ((Gen.dat1 (F := Ideal) V c).after 7 t) = _
  rw [Gen.after1_7]
  unfold Gen.out1_7
  rw [View.canon_unit_zero zero2]
  simp only [View.ld_unit_zero (S := S5000x128) zero2, View.ld_unit_zero (S := S5000x1) zero2, View.ld_unit_zero (S := S128) zero1]
  obtain ⟨-, -, -, -, -, -, -, -, -, -, -, -, e0, e1, -⟩ := block_index t
  refine funext fun (j : S5000x128.Idx) => ?_
  obtain ⟨r, k, rfl⟩ : ∃ (r : Fin 5000) (k : Fin 128), j = ix2 r k := ⟨j 0, j 1, eq_ix2 j⟩
  have hemb : ((cfg1.win 7).blk t).view.emb (ix2 r k) = (ix2 (⟨t.val * 5000 + r.val, row_lt t r⟩ : Fin 200000) k : S200000x128.Idx) := by
    funext a
    apply Fin.ext
    match a with
    | ⟨0, _⟩ => show win1_7.index t (0 : Fin 2) * 5000 + 1 * r.val = t.val * 5000 + r.val; omega
    | ⟨1, _⟩ => show win1_7.index t (1 : Fin 2) * 128 + 1 * k.val = k.val; omega
  rw [View.read_apply]
  show Gen.k1_pay1 (F := Ideal) _ _ _ _ _ (ix2 r k) = Cert.Spec.soutOf _ _ _ _ _ (((cfg1.win 7).blk t).view.emb (ix2 r k))
  rw [hemb]
  exact sout_point _ _ _ _ _ _ _ _ _ _ r k _ (blk_s V c t r k _ rfl) (blk_mean V c t r _ rfl) (blk_inv V c t r _ rfl)
    (blk_w V c t k) (blk_b V c t k)

/-- Point t writes back block t of the vector output's function of the region's input arrays. -/
theorem vout_flushed (c : Dev nD) (t : Fin cfg1.N) :
    (Gen.dat1 (F := Ideal) V c).flushed 8 t = ((cfg1.win 8).blk t).view.read (Elt Ideal)
      (Cert.Spec.voutOf (V c main_v0) (V c main_v61)) := by
  show (cfg1.win 8).cut (grid1.coords t) ((Gen.dat1 (F := Ideal) V c).after 8 t) = _
  rw [Gen.after1_8]
  unfold Gen.out1_8
  rw [View.canon_unit_zero zero2]
  simp only [View.ld_unit_zero (S := S5000x384) zero2, View.ld_unit_zero (S := S5000x1) zero2]
  obtain ⟨-, -, -, -, -, -, -, -, -, -, -, -, -, -, e0, e1⟩ := block_index t
  refine funext fun (j : S5000x384.Idx) => ?_
  obtain ⟨r, q, rfl⟩ : ∃ (r : Fin 5000) (q : Fin 384), j = ix2 r q := ⟨j 0, j 1, eq_ix2 j⟩
  have hemb : ((cfg1.win 8).blk t).view.emb (ix2 r q) = (ix2 (⟨t.val * 5000 + r.val, row_lt t r⟩ : Fin 200000) q : S200000x384.Idx) := by
    funext a
    apply Fin.ext
    match a with
    | ⟨0, _⟩ => show win1_8.index t (0 : Fin 2) * 5000 + 1 * r.val = t.val * 5000 + r.val; omega
    | ⟨1, _⟩ => show win1_8.index t (1 : Fin 2) * 384 + 1 * q.val = q.val; omega
  rw [View.read_apply]
  show Gen.k1_pay2 (F := Ideal) _ _ (ix2 r q) = Cert.Spec.voutOf _ _ (((cfg1.win 8).blk t).view.emb (ix2 r q))
  rw [hemb]
  exact vout_point _ _ _ _ r q _ (blk_v V c t r q _ rfl) (blk_invv V c t r _ rfl)

/-! ## The blocks cover the arrays -/

/-- An index of the scalar output is in point t's block iff each coordinate is in the block's range on its axis. -/
theorem mem_sout_blk (t : Fin cfg1.N) (i : S200000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v62_0).slice (win1_7.rect t)).set ↔ _
  rw [View.set_slice_whole, Rect.mem_set_unit]
  exact Iff.rfl

/-- An index of the vector output is in point t's block iff each coordinate is in the block's range on its axis. -/
theorem mem_vout_blk (t : Fin cfg1.N) (i : S200000x384.Idx) :
    i ∈ ((cfg1.win 8).blk t).view.set ↔ ∀ a : Fin 2, win1_8.index t a * S5000x384.size a ≤ (i a).val ∧ (i a).val < win1_8.index t a * S5000x384.size a + S5000x384.size a := by
  show i ∈ ((View.whole main_v62_1).slice (win1_8.rect t)).set ↔ _
  rw [View.set_slice_whole, Rect.mem_set_unit]
  exact Iff.rfl

/-- The point that covers row n is n / 5000. -/
theorem point_of_row (n : Nat) (hn : n < 200000) : n / 5000 < cfg1.N := by
  show n / 5000 < grid1.N
  rw [Gen.N_1]
  omega

/-- Every index of the scalar output is in the block of the point its row names. -/
theorem sout_cover (i : S200000x128.Idx) :
    ∃ t : Fin cfg1.N, (cfg1.win 7).flush t = true ∧ i ∈ ((cfg1.win 7).blk t).view.set := by
  have hi0 : (i 0).val < 200000 := (i 0).isLt
  have hi1 : (i 1).val < 128 := (i 1).isLt
  obtain ⟨-, -, -, -, -, -, -, -, -, -, -, -, e0, e1, -⟩ := block_index ⟨(i 0).val / 5000, point_of_row _ hi0⟩
  have q0 : win1_7.index ⟨(i 0).val / 5000, point_of_row _ hi0⟩ (0 : Fin 2) = (i 0).val / 5000 := e0
  refine ⟨⟨(i 0).val / 5000, point_of_row _ hi0⟩, Gen.flush1_7 _, ?_⟩
  rw [mem_sout_blk]
  intro a
  match a with
  | ⟨0, _⟩ => show win1_7.index _ (0 : Fin 2) * 5000 ≤ (i 0).val ∧ (i 0).val < win1_7.index _ (0 : Fin 2) * 5000 + 5000; omega
  | ⟨1, _⟩ => show win1_7.index _ (1 : Fin 2) * 128 ≤ (i 1).val ∧ (i 1).val < win1_7.index _ (1 : Fin 2) * 128 + 128; omega

/-- Every index of the vector output is in the block of the point its row names. -/
theorem vout_cover (i : S200000x384.Idx) :
    ∃ t : Fin cfg1.N, (cfg1.win 8).flush t = true ∧ i ∈ ((cfg1.win 8).blk t).view.set := by
  have hi0 : (i 0).val < 200000 := (i 0).isLt
  have hi1 : (i 1).val < 384 := (i 1).isLt
  obtain ⟨-, -, -, -, -, -, -, -, -, -, -, -, -, -, e0, e1⟩ := block_index ⟨(i 0).val / 5000, point_of_row _ hi0⟩
  have q0 : win1_8.index ⟨(i 0).val / 5000, point_of_row _ hi0⟩ (0 : Fin 2) = (i 0).val / 5000 := e0
  refine ⟨⟨(i 0).val / 5000, point_of_row _ hi0⟩, Gen.flush1_8 _, ?_⟩
  rw [mem_vout_blk]
  intro a
  match a with
  | ⟨0, _⟩ => show win1_8.index _ (0 : Fin 2) * 5000 ≤ (i 0).val ∧ (i 0).val < win1_8.index _ (0 : Fin 2) * 5000 + 5000; omega
  | ⟨1, _⟩ => show win1_8.index _ (1 : Fin 2) * 384 ≤ (i 1).val ∧ (i 1).val < win1_8.index _ (1 : Fin 2) * 384 + 384; omega

/-! ## The arrays after the region -/

/-- The scalar output ends holding the normalised scalar features of the region's input arrays. -/
theorem sout_final (c : Dev nD) :
    (Gen.dat1 (F := Ideal) V c).arrAt 7 cfg1.N
      = Cert.Spec.soutOf (V c main_arg0) (V c main_v59) (V c main_v60) (V c main_arg3) (V c main_arg4) :=
  (Gen.dat1 (F := Ideal) V c).arrAt_eq_of_cover 7 _ (fun t _ => sout_flushed V c t) sout_cover

/-- The vector output ends holding the normalised vector features of the region's input arrays. -/
theorem vout_final (c : Dev nD) :
    (Gen.dat1 (F := Ideal) V c).arrAt 8 cfg1.N = Cert.Spec.voutOf (V c main_v0) (V c main_v61) :=
  (Gen.dat1 (F := Ideal) V c).arrAt_eq_of_cover 8 _ (fun t _ => vout_flushed V c t) vout_cover

end Cert.KernelIdeal.R1

end
-- ==== Proof.KFinal.lean ====
/-
  The idealized program's two results as whole-array functions of its arguments.  Reading the boundary contents back
  through the segments: the normalising region leaves the scalar output at `soutOf` and the flattened vector output at
  `voutOf` of its input arrays; those are the arguments, the flattened v, and the three columns the per-graph host
  arithmetic computed from the statistics array, which the statistics region left at `statsOf` of the arguments.
-/
import proofs.«150193_j37254546325938_2_alg».proof.Proof.KHost
import proofs.«150193_j37254546325938_2_alg».proof.Proof.Region0
import proofs.«150193_j37254546325938_2_alg».proof.Proof.Region1

set_option maxRecDepth 16384

noncomputable section

namespace Cert.KernelIdeal.KFinal

open Idealize.ShloMosaic Idealize.ShloMosaic.TcCoe Idealize.ShloMosaic.StableHlo Idealize.SL.Sem
open Cert.KernelIdeal Cert.KernelIdeal.Gen Cert.Shared Cert.KernelIdeal.KHost

variable (m : (ℓ : Loc nD τ sig) → Buf (Elt Ideal) ℓ) (ρ : Dev nD → PrngReg)

/-- v with its last two axes merged: N × 384. -/
abbrev flatV (c : Dev nD) : FVec Ideal S200000x384 .f32 :=
  shapeCast S200000x384 (m ((c : Thread nD τ).loc main_arg1)) Facts₀.shapeCasts_S200000x3x128_S200000x384

/-- The packed per-row statistics of the arguments. -/
abbrev statsK (c : Dev nD) : FVec Ideal S200000x3 .f32 :=
  Cert.Spec.statsOf (m ((c : Thread nD τ).loc main_arg0)) (flatV m c)

/-- The statistics region leaves the packed statistics of the arguments. -/
theorem stats_eq (c : Dev nD) : W2 m ρ c (Proc.devRef .tc main_v1) = statsK m c :=
  ((W2_arr m ρ c 2).trans (R0.stats_final (V1 m ρ) c)).trans
    (congrArg₂ Cert.Spec.statsOf (W1_arg m ρ c main_arg0 (by decide)) (W1_v0 m ρ c))

/-- The per-row graph mean column, from the arguments. -/
abbrev meanCol (c : Dev nD) : FVec Ideal S200000x1 .f32 :=
  colOf (gat (segMean (m ((c : Thread nD τ).loc main_arg2)) (statCol0 (statsK m c))) (m ((c : Thread nD τ).loc main_arg2)))

/-- The per-row reciprocal columns, from the arguments. -/
abbrev invVarCol (c : Dev nD) : FVec Ideal S200000x1 .f32 :=
  extractStridedSlice S200000x1 ![0, 0] (kRecips (statsK m c) (m ((c : Thread nD τ).loc main_arg2))) Facts₀.slices_S200000x2_S200000x1_0_0
abbrev invVmeanCol (c : Dev nD) : FVec Ideal S200000x1 .f32 :=
  extractStridedSlice S200000x1 ![0, 1] (kRecips (statsK m c) (m ((c : Thread nD τ).loc main_arg2))) Facts₀.slices_S200000x2_S200000x1_0_1

theorem mean_eq (c : Dev nD) : V3 m ρ c main_v59 = meanCol m c := by
  rw [V3_v59, stats_eq, W2_arg2]
theorem invVar_eq (c : Dev nD) : V3 m ρ c main_v60 = invVarCol m c := by
  rw [V3_v60, stats_eq, W2_arg2]
theorem invVmean_eq (c : Dev nD) : V3 m ρ c main_v61 = invVmeanCol m c := by
  rw [V3_v61, stats_eq, W2_arg2]

/-- The first result: the normalised scalar output. -/
theorem out0_eq (c : Dev nD) : W5 m ρ c (Proc.devRef .tc main_v62_0)
    = Cert.Spec.soutOf (m ((c : Thread nD τ).loc main_arg0)) (meanCol m c) (invVarCol m c)
        (m ((c : Thread nD τ).loc main_arg3)) (m ((c : Thread nD τ).loc main_arg4)) := by
  have h5 : W5 m ρ c (Proc.devRef .tc main_v62_0) = W4 m ρ c (Proc.devRef .tc main_v62_0) := by
    show StableHlo.after hostOps2 (W4 m ρ c) (Proc.devRef .tc main_v62_0) = _
    simp only [after_cons, after_nil]
    rw [reshape_result_ne]
    decide
  refine h5.trans ((W4_arr m ρ c 7).trans ((R1.sout_final (V3 m ρ) c).trans ?_))
  rw [mean_eq, invVar_eq, (V3_keep m ρ c main_arg0 (Or.inl rfl)).trans (W2_arg0 m ρ c),
    (V3_keep m ρ c main_arg3 (Or.inr (Or.inl rfl))).trans (W2_arg3 m ρ c),
    (V3_keep m ρ c main_arg4 (Or.inr (Or.inr (Or.inl rfl)))).trans (W2_arg4 m ρ c)]

/-- The second result: the normalised vector output, its columns split back into 3 × 128. -/
theorem out1_eq (c : Dev nD) : W5 m ρ c (Proc.devRef .tc main_v63)
    = shapeCast S200000x3x128 (Cert.Spec.voutOf (flatV m c) (invVmeanCol m c)) Facts₀.shapeCasts_S200000x384_S200000x3x128 := by
  have h5 : W5 m ρ c (Proc.devRef .tc main_v63)
      = shapeCast S200000x3x128 (W4 m ρ c (Proc.devRef .tc main_v62_1)) Facts₀.shapeCasts_S200000x384_S200000x3x128 := by
    show StableHlo.after hostOps2 (W4 m ρ c) (Proc.devRef .tc main_v63) = _
    after_results
    rfl
  rw [h5, (W4_arr m ρ c 8).trans (R1.vout_final (V3 m ρ) c), invVmean_eq,
    (V3_keep m ρ c main_v0 (Or.inr (Or.inr (Or.inr rfl)))).trans (W2_v0 m ρ c)]

end Cert.KernelIdeal.KFinal

end
-- ==== Proof.Consts.lean ====
/-
  The float patterns the two programs spell, as the extended reals they denote: 0, 1, 2 and 128 are those numbers,
  and the clamp ε (the float nearest 1e-6) is a positive real.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

/-- ε is a positive real. -/
theorem ofBits_eps : ∃ r : ℝ, 0 < r ∧ Ideal.ofBits .f32 0x358637BD#32 = (r : EReal) := by
  refine ⟨_, ?_, by simp [Ideal.ofBits, Ideal.ieee, -EReal.coe_mul]; rfl⟩
  norm_num

end Cert.Consts

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.RefSideDefs.lean ====
/-
  The reference program's stages as whole-array functions over the per-graph arithmetic both programs share, each read
  at an index.

  With s the N × 128 scalar channels, v the N × 3 × 128 vector channels, g the rows' graph ids, w and b the affine map:
    rMeanNode s [n]    = (Σₖ s[n,k]) / 128
    rMu s g [n]        = the mean over row n's graph of rMeanNode s
    rCentered s g      = s − rMu s g, row by row
    rVarNode s g [n]   = (Σₖ rCentered[n,k]²) / 128
    rVnormNode v [n]   = (Σₖ v[n,0,k]² + v[n,1,k]² + v[n,2,k]²) / 128
    rSout s g w b      = rCentered / (the clamped per-graph mean of rVarNode, at the row's graph) · w + b
    rVout v g          = v / (the clamped per-graph mean of rVnormNode, at the row's graph)
  and the reference's run ends with its two results at rSout and rVout of its arguments.
-/
import proofs.«150193_j37254546325938_2_alg».proof.Proof.Gen.ReferenceIdeal.Read
import proofs.«150193_j37254546325938_2_alg».proof.Proof.Shared
import proofs.«150193_j37254546325938_2_alg».proof.Proof.Spec
import proofs.«150193_j37254546325938_2_alg».proof.Proof.Consts
import proofs.«150193_j37254546325938_2_alg».proof.Proof.LibIndexNorm
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Idealize.ShloMosaic.TcCoe Idealize.SL.Sem Cert.Shared
open scoped BigOperators

variable [Cert.KernelIdeal.Facts] [Cert.ReferenceIdeal.Facts]

/-! ## Operations at an index -/

/-- The host's division at an index. -/
theorem hostDivf_apply {s : Shape} (a b : FVec Ideal s .f32) (i : s.Idx) :
    Host.divf (F := Ideal) a b i = Ideal.div (a i) (b i) := rfl

/-- A length-N constant array at an index. -/
theorem fillN_apply (bits : BitVec 32) (i : KernelIdeal.S200000.Idx) : fillN bits i = Ideal.ofBits .f32 bits := by
  unfold fillN
  exact broadcastInDim_apply _ _ _ i (fun a => a.elim0) (fun a => a.elim0)

/-- The host's sum of an N × 128 array along its second axis from a constant: at row `n`, the constant plus the sum of
    the row's entries. -/
theorem rowSum_apply (x : FVec Ideal ReferenceIdeal.S200000x128 .f32) (bits : BitVec 32) (n : Fin 200000) :
    Host.reduceAdd (F := Ideal) x (constant (F := Ideal) ReferenceIdeal.S_ .f32 bits)
        ReferenceIdeal.Facts₀.reducesTo_S200000x128_S200000_d1 ReferenceIdeal.Facts₀.h_S_ (ix1 n)
      = Ideal.ofBits .f32 bits + ∑ k : Fin 128, x (ix2 n k) := by
  simp only [Host.reduceAdd, Ideal.hostReduceAdd_def]
  rw [Ideal.hostReduceAdd_single ReferenceIdeal.Facts₀.reducesTo_S200000x128_S200000_d1 (by decide)]
  refine congrArg₂ (· + ·) rfl (Finset.sum_congr rfl fun k _ => ?_)
  exact congrArg x (funext fun a => Fin.ext (by match a with | ⟨0, _⟩ => rfl | ⟨1, _⟩ => rfl))

/-- The host's sum of an N × 3 × 128 array along its middle axis from a constant: at `(n, k)`, the constant plus the
    sum over the three components. -/
theorem midSum_apply (x : FVec Ideal ReferenceIdeal.S200000x3x128 .f32) (bits : BitVec 32) (n : Fin 200000) (k : Fin 128) :
    Host.reduceAdd (F := Ideal) x (constant (F := Ideal) ReferenceIdeal.S_ .f32 bits)
        ReferenceIdeal.Facts₀.reducesTo_S200000x3x128_S200000x128_d1 ReferenceIdeal.Facts₀.h_S_ (ix2 n k)
      = Ideal.ofBits .f32 bits + ∑ c : Fin 3, x (ix3 n c k) := by
  simp only [Host.reduceAdd, Ideal.hostReduceAdd_def]
  rw [Ideal.hostReduceAdd_single ReferenceIdeal.Facts₀.reducesTo_S200000x3x128_S200000x128_d1 (by decide)]
  refine congrArg₂ (· + ·) rfl (Finset.sum_congr rfl fun c _ => ?_)
  exact congrArg x (funext fun a => Fin.ext (by match a with | ⟨0, _⟩ => rfl | ⟨1, _⟩ => rfl | ⟨2, _⟩ => rfl))

/-- A length-N array spread over the two trailing axes of an N × 3 × 128 array: at `(n, c, k)`, its entry `n`. -/
theorem bcast_trailing_apply {α : Type} (y : ReferenceIdeal.S200000.Idx → α)
    (h₁ : ReferenceIdeal.S200000.BroadcastsInDim ReferenceIdeal.S200000x1x1 ![0])
    (h₂ : ReferenceIdeal.S200000x1x1.BroadcastsInDim ReferenceIdeal.S200000x3x128 ![0, 1, 2])
    (n : Fin 200000) (c : Fin 3) (k : Fin 128) :
    broadcastInDim ReferenceIdeal.S200000x3x128 ![0, 1, 2] h₂ (broadcastInDim ReferenceIdeal.S200000x1x1 ![0] h₁ y) (ix3 n c k)
      = y (ix1 n) :=
  (broadcastInDim_apply _ h₂ _ (ix3 n c k) (ix3 n (0 : Fin 1) (0 : Fin 1)) (fun a => match a with
    | ⟨0, _⟩ => by show n.val = if (200000 : Nat) = 1 then 0 else n.val; rw [if_neg (by decide)]
    | ⟨1, _⟩ => by show 0 = if (1 : Nat) = 1 then 0 else c.val; rw [if_pos rfl]
    | ⟨2, _⟩ => by show 0 = if (1 : Nat) = 1 then 0 else k.val; rw [if_pos rfl])).trans
  (broadcastInDim_apply _ h₁ y _ (ix1 n) (fun a => match a with
    | ⟨0, _⟩ => by show n.val = if (200000 : Nat) = 1 then 0 else n.val; rw [if_neg (by decide)]))

/-! ## The stages -/

/-- The per-row mean of the scalar channels. -/
def rMeanNode (s : FVec Ideal ReferenceIdeal.S200000x128 .f32) : FVec Ideal ReferenceIdeal.S200000 .f32 :=
  Host.divf (F := Ideal) (Host.reduceAdd (F := Ideal) s (constant (F := Ideal) ReferenceIdeal.S_ .f32 0x00000000#32)
    ReferenceIdeal.Facts₀.reducesTo_S200000x128_S200000_d1 ReferenceIdeal.Facts₀.h_S_) (fillN 0x43000000#32)

theorem rMeanNode_apply (s : FVec Ideal ReferenceIdeal.S200000x128 .f32) (n : Fin 200000) :
    rMeanNode s (ix1 n) = Cert.Spec.rowMean s n := by
  unfold rMeanNode
  rw [hostDivf_apply, rowSum_apply, fillN_apply, Cert.Consts.ofBits_zero, zero_add]
  rfl

/-- The row's graph mean of the per-row means. -/
def rMu (s : FVec Ideal ReferenceIdeal.S200000x128 .f32) (g : IVec ReferenceIdeal.S200000 32) :
    FVec Ideal ReferenceIdeal.S200000 .f32 := gat (segMean g (rMeanNode s)) g

/-- The scalar channels centred by the row's graph mean. -/
def rCentered (s : FVec Ideal ReferenceIdeal.S200000x128 .f32) (g : IVec ReferenceIdeal.S200000 32) :
    FVec Ideal ReferenceIdeal.S200000x128 .f32 :=
  subf s (broadcastInDim ReferenceIdeal.S200000x128 ![0, 1] ReferenceIdeal.Facts₀.bcast_S200000x1_S200000x128_0_1 (colOf (rMu s g)))

theorem rCentered_apply (s : FVec Ideal ReferenceIdeal.S200000x128 .f32) (g : IVec ReferenceIdeal.S200000 32)
    (n : Fin 200000) (k : Fin 128) : rCentered s g (ix2 n k) = s (ix2 n k) - rMu s g (ix1 n) := by
  unfold rCentered colOf
  rw [subf_apply, Cert.Lib.IndexNorm.bcast_col_cols_apply]

/-- The per-row mean of the squared centred channels. -/
def rVarNode (s : FVec Ideal ReferenceIdeal.S200000x128 .f32) (g : IVec ReferenceIdeal.S200000 32) :
    FVec Ideal ReferenceIdeal.S200000 .f32 :=
  Host.divf (F := Ideal) (Host.reduceAdd (F := Ideal) (mulf (rCentered s g) (rCentered s g))
    (constant (F := Ideal) ReferenceIdeal.S_ .f32 0x00000000#32)
    ReferenceIdeal.Facts₀.reducesTo_S200000x128_S200000_d1 ReferenceIdeal.Facts₀.h_S_) (fillN 0x43000000#32)

theorem rVarNode_apply (s : FVec Ideal ReferenceIdeal.S200000x128 .f32) (g : IVec ReferenceIdeal.S200000 32) (n : Fin 200000) :
    rVarNode s g (ix1 n)
      = Ideal.div (∑ k : Fin 128, rCentered s g (ix2 n k) * rCentered s g (ix2 n k)) Cert.Spec.c128 := by
  unfold rVarNode
  rw [hostDivf_apply, rowSum_apply, fillN_apply, Cert.Consts.ofBits_zero, zero_add]
  rfl

/-- The per-row mean over the channels of the squared length of the 3-vectors. -/
def rVnormNode (v : FVec Ideal ReferenceIdeal.S200000x3x128 .f32) : FVec Ideal ReferenceIdeal.S200000 .f32 :=
  Host.divf (F := Ideal) (Host.reduceAdd (F := Ideal) (Host.reduceAdd (F := Ideal) (mulf v v)
      (constant (F := Ideal) ReferenceIdeal.S_ .f32 0x00000000#32)
      ReferenceIdeal.Facts₀.reducesTo_S200000x3x128_S200000x128_d1 ReferenceIdeal.Facts₀.h_S_)
    (constant (F := Ideal) ReferenceIdeal.S_ .f32 0x00000000#32)
    ReferenceIdeal.Facts₀.reducesTo_S200000x128_S200000_d1 ReferenceIdeal.Facts₀.h_S_) (fillN 0x43000000#32)

theorem rVnormNode_apply (v : FVec Ideal ReferenceIdeal.S200000x3x128 .f32) (n : Fin 200000) :
    rVnormNode v (ix1 n)
      = Ideal.div (∑ k : Fin 128, (v (ix3 n 0 k) * v (ix3 n 0 k) + v (ix3 n 1 k) * v (ix3 n 1 k)
          + v (ix3 n 2 k) * v (ix3 n 2 k))) Cert.Spec.c128 := by
  unfold rVnormNode
  rw [hostDivf_apply, rowSum_apply, fillN_apply, Cert.Consts.ofBits_zero, zero_add]
  refine congrArg (fun z => Ideal.div z Cert.Spec.c128) (Finset.sum_congr rfl fun k _ => ?_)
  rw [midSum_apply, Cert.Consts.ofBits_zero, zero_add, Fin.sum_univ_three]
  rfl

/-- The reference's normalised scalar output. -/
def rSout (s : FVec Ideal ReferenceIdeal.S200000x128 .f32) (g : IVec ReferenceIdeal.S200000 32)
    (w b : FVec Ideal ReferenceIdeal.S128 .f32) : FVec Ideal ReferenceIdeal.S200000x128 .f32 :=
  addf (mulf (Host.divf (F := Ideal) (rCentered s g)
      (broadcastInDim ReferenceIdeal.S200000x128 ![0, 1] ReferenceIdeal.Facts₀.bcast_S200000x1_S200000x128_0_1
        (colOf (gat (clampEps (segMean g (rVarNode s g))) g))))
    (broadcastInDim ReferenceIdeal.S200000x128 ![0, 1] ReferenceIdeal.Facts₀.bcast_S1x128_S200000x128_0_1
      (broadcastInDim ReferenceIdeal.S1x128 ![1] ReferenceIdeal.Facts₀.bcast_S128_S1x128_1 w)))
    (broadcastInDim ReferenceIdeal.S200000x128 ![0, 1] ReferenceIdeal.Facts₀.bcast_S1x128_S200000x128_0_1
      (broadcastInDim ReferenceIdeal.S1x128 ![1] ReferenceIdeal.Facts₀.bcast_S128_S1x128_1 b))

theorem rSout_apply (s : FVec Ideal ReferenceIdeal.S200000x128 .f32) (g : IVec ReferenceIdeal.S200000 32)
    (w b : FVec Ideal ReferenceIdeal.S128 .f32) (n : Fin 200000) (k : Fin 128) :
    rSout s g w b (ix2 n k)
      = Ideal.div (rCentered s g (ix2 n k)) (gat (clampEps (segMean g (rVarNode s g))) g (ix1 n)) * w (ix1 k) + b (ix1 k) := by
  unfold rSout colOf
  rw [addf_apply, mulf_apply, hostDivf_apply, Cert.Lib.IndexNorm.bcast_col_cols_apply,
    Cert.Lib.IndexNorm.bcast_row_rows_apply, Cert.Lib.IndexNorm.bcast_row_rows_apply]

/-- The reference's normalised vector output. -/
def rVout (v : FVec Ideal ReferenceIdeal.S200000x3x128 .f32) (g : IVec ReferenceIdeal.S200000 32) :
    FVec Ideal ReferenceIdeal.S200000x3x128 .f32 :=
  Host.divf (F := Ideal) v
    (broadcastInDim ReferenceIdeal.S200000x3x128 ![0, 1, 2] ReferenceIdeal.Facts₀.bcast_S200000x1x1_S200000x3x128_0_1_2
      (broadcastInDim ReferenceIdeal.S200000x1x1 ![0] ReferenceIdeal.Facts₀.bcast_S200000_S200000x1x1_0
        (gat (clampEps (segMean g (rVnormNode v))) g)))

theorem rVout_apply (v : FVec Ideal ReferenceIdeal.S200000x3x128 .f32) (g : IVec ReferenceIdeal.S200000 32)
    (n : Fin 200000) (c : Fin 3) (k : Fin 128) :
    rVout v g (ix3 n c k) = Ideal.div (v (ix3 n c k)) (gat (clampEps (segMean g (rVnormNode v))) g (ix1 n)) := by
  unfold rVout
  rw [hostDivf_apply, bcast_trailing_apply]

end Cert.RefSide

end
-- ==== Proof.RefSide.lean ====
/-
  The reference program's run, read: it ends with its two results at the stage functions `rSout` and `rVout` of its
  arguments, the arguments unchanged.  The composed terms the run states are, operation for operation, the stage
  functions unfolded.
-/
import proofs.«150193_j37254546325938_2_alg».proof.Proof.RefSideDefs

noncomputable section

namespace Cert.RefSide

open Idealize.ShloMosaic Idealize.ShloMosaic.ValueIdx Idealize.ShloMosaic.TcCoe Idealize.SL.Sem Cert.Shared

variable [Cert.KernelIdeal.Facts] [Cert.ReferenceIdeal.Facts]

set_option maxRecDepth 8192 in
/-- The run's term for the scalar result is `rSout` of the arguments. -/
theorem res_sout_eq (m' : (ℓ : Loc ReferenceIdeal.nD ReferenceIdeal.τ ReferenceIdeal.sig) → Buf (Elt Ideal) ℓ)
    (c : Dev ReferenceIdeal.nD) :
    ReferenceIdeal.Value.res_main_v48 m' c
      = rSout (m' ((c.tc : Thread ReferenceIdeal.nD ReferenceIdeal.τ).loc ReferenceIdeal.main_arg0))
          (m' ((c.tc : Thread ReferenceIdeal.nD ReferenceIdeal.τ).loc ReferenceIdeal.main_arg2))
          (m' ((c.tc : Thread ReferenceIdeal.nD ReferenceIdeal.τ).loc ReferenceIdeal.main_arg3))
          (m' ((c.tc : Thread ReferenceIdeal.nD ReferenceIdeal.τ).loc ReferenceIdeal.main_arg4)) := by
  unfold ReferenceIdeal.Value.res_main_v48 rSout rVarNode rCentered rMu rMeanNode
  unfold segMean counts segSum gat wrapIdx clampEps colOf fill512 fillN fillNI
  rfl

set_option maxRecDepth 8192 in
/-- The run's term for the vector result is `rVout` of the arguments. -/
theorem res_vout_eq (x1 : FVec Ideal ReferenceIdeal.S200000x3x128 .f32) (x2 : IVec ReferenceIdeal.S200000 32) :
    ReferenceIdeal.Read.val_main_v69 (F := Ideal) x1 x2 = rVout x1 x2 := by
  unfold rVout rVnormNode
  unfold segMean counts segSum gat wrapIdx clampEps colOf fill512 fillN fillNI
  exact (ReferenceIdeal.Read.val_main_v69_eq (F := Ideal) x1 x2).symm.trans rfl

/-- On every device, from any memory with zero counters: every weakly fair execution of the reference's @main
    terminates with its results at `rSout` and `rVout` of the arguments and the arguments unchanged. -/
theorem run_ref (m' : (ℓ : Loc ReferenceIdeal.nD ReferenceIdeal.τ ReferenceIdeal.sig) → Buf (Elt Ideal) ℓ)
    (ρ' : Dev ReferenceIdeal.nD → PrngReg) :
    θ_run (ReferenceIdeal.defs (F := Ideal)) (onTc (τ := ReferenceIdeal.τ) (ReferenceIdeal.main (F := Ideal))) ⟨m', fun _ => 0, ρ'⟩
      fun r => ∀ c : Dev ReferenceIdeal.nD,
        r.2.mem ((c.tc : Thread ReferenceIdeal.nD ReferenceIdeal.τ).loc ReferenceIdeal.main_v48)
          = rSout (m' ((c.tc : Thread ReferenceIdeal.nD ReferenceIdeal.τ).loc ReferenceIdeal.main_arg0))
              (m' ((c.tc : Thread ReferenceIdeal.nD ReferenceIdeal.τ).loc ReferenceIdeal.main_arg2))
              (m' ((c.tc : Thread ReferenceIdeal.nD ReferenceIdeal.τ).loc ReferenceIdeal.main_arg3))
              (m' ((c.tc : Thread ReferenceIdeal.nD ReferenceIdeal.τ).loc ReferenceIdeal.main_arg4))
        ∧ r.2.mem ((c.tc : Thread ReferenceIdeal.nD ReferenceIdeal.τ).loc ReferenceIdeal.main_v69)
          = rVout (m' ((c.tc : Thread ReferenceIdeal.nD ReferenceIdeal.τ).loc ReferenceIdeal.main_arg1))
              (m' ((c.tc : Thread ReferenceIdeal.nD ReferenceIdeal.τ).loc ReferenceIdeal.main_arg2))
        ∧ r.2.mem ((c.tc : Thread ReferenceIdeal.nD ReferenceIdeal.τ).loc ReferenceIdeal.main_arg0) = m' ((c.tc : Thread ReferenceIdeal.nD ReferenceIdeal.τ).loc ReferenceIdeal.main_arg0)
        ∧ r.2.mem ((c.tc : Thread ReferenceIdeal.nD ReferenceIdeal.τ).loc ReferenceIdeal.main_arg1) = m' ((c.tc : Thread ReferenceIdeal.nD ReferenceIdeal.τ).loc ReferenceIdeal.main_arg1)
        ∧ r.2.mem ((c.tc : Thread ReferenceIdeal.nD ReferenceIdeal.τ).loc ReferenceIdeal.main_arg2) = m' ((c.tc : Thread ReferenceIdeal.nD ReferenceIdeal.τ).loc ReferenceIdeal.main_arg2)
        ∧ r.2.mem ((c.tc : Thread ReferenceIdeal.nD ReferenceIdeal.τ).loc ReferenceIdeal.main_arg3) = m' ((c.tc : Thread ReferenceIdeal.nD ReferenceIdeal.τ).loc ReferenceIdeal.main_arg3)
        ∧ r.2.mem ((c.tc : Thread ReferenceIdeal.nD ReferenceIdeal.τ).loc ReferenceIdeal.main_arg4) = m' ((c.tc : Thread ReferenceIdeal.nD ReferenceIdeal.τ).loc ReferenceIdeal.main_arg4) :=
  (θ_run (ReferenceIdeal.defs (F := Ideal)) _ _).mono
    (fun _ h c => ⟨(h c).1.trans (res_sout_eq m' c),
      (h c).2.1.trans ((ReferenceIdeal.Read.val_main_v69_eq (F := Ideal) _ _).trans (res_vout_eq _ _)),
      (h c).2.2⟩)
    (ReferenceIdeal.Value.run (F := Ideal) m' ρ')

end Cert.RefSide

end
-- ==== Proof.LibRowGather.lean ====
/-
  `stablehlo.gather` of ROWS of a matrix and of ENTRIES of a vector at a column of start indices, read at an index.

  `x[idx]` of a matrix `x : [N, K]` (or a vector `x : [N]`) at an integer array `idx : [R]` lowers to a gather over the
  indices reshaped to `[R, 1]`: index_vector_dim 1, start_index_map `[0]`, collapsed_slice_dims `[0]`, and for the
  matrix offset_dims `[1]` with slice_sizes `[1, K]`. Result row `r` is the operand's row at the start index
  `idx[r, 0]`, read as a signed integer and clamped into `[0, N − 1]`.
-/
import Idealize.ShloMosaic.Lib.ValueIdx

noncomputable section

open Idealize.ShloMosaic Idealize.ShloMosaic.ValueIdx

namespace Cert.Lib.RowGather

variable {α : Type}

/-- The second axis is not the first. -/
private theorem one_ne_zero2 : ¬ ((1 : Fin 2) = 0) := by decide

/-- The dimension numbers of a row gather: operand `[N, K]`, start indices `[R, 1]`, result `[R, K]`; the conditions
    `wf` are decided on a program's literal shapes. -/
abbrev rowGatherDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]` (read signed, clamped into `[0, N − 1]`) and
    column `k`. -/
theorem rowGather_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowGatherDims N K R wf) x idx (ix2 r k)
      = x (ix2 (⟨min (idx (ix2 r (0 : Fin 1))).toInt.toNat (N - 1), by omega⟩ : Fin N) k) := by
  have h0 : ((rowGatherDims N K R wf).operandIdx (ix2 r k) idx (0 : Fin 2)).val
      = min (idx (ix2 r (0 : Fin 1))).toInt.toNat (N - 1) := by
    show (rowGatherDims N K R wf).start (ix2 r k) idx 0 + (rowGatherDims N K R wf).batchCoord (ix2 r k) 0
      + (rowGatherDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K R wf).startIndexMap from List.mem_singleton.mpr rfl)]
    have hsi : (rowGatherDims N K R wf).siIdx (ix2 r k) ⟨List.idxOf (0 : Fin 2) (rowGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowGatherDims N K R wf).operandIdx (ix2 r k) idx (1 : Fin 2)).val = k.val := by
    show (rowGatherDims N K R wf).start (ix2 r k) idx 1 + (rowGatherDims N K R wf).batchCoord (ix2 r k) 1
      + (rowGatherDims N K R wf).offCoord (ix2 r k) 1 = _
    rw [GatherDims.batchCoord_eq_zero _ _ _ List.not_mem_nil]
    unfold GatherDims.start
    rw [dif_neg (show (1 : Fin 2) ∉ (rowGatherDims N K R wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

/-- The dimension numbers of an entry gather: operand `[N]`, start indices `[R, 1]`, result `[R]`; the conditions
    `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at the start index `idx[r, 0]`, read signed and clamped into
    `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.Lib.RowGather

end
-- ==== Proof.LibVecScatterAdd.lean ====
/-
  A float vector scatter-add read at an entry, over the extended reals.

  `x.at[g].add(u)` for a vector `x` of length `N`, an `[E, 1]` matrix `g` of integer indices and a vector `u` of `E` updates lowers
  to a `stablehlo.scatter` with an `add` body whose dimension numbers are: no update window axis, operand axis 0 inserted,
  scatter axis 0 mapped to operand axis 0, the index vector along axis 1 of `g`. Update `e` lands on entry `g[e, 0]` (read as a
  signed integer) when that lies in `[0, N)`, and nowhere otherwise. At the ideal instance the result's entry `v` is therefore
  `x v + ∑ e, [g e = v] · u e`; with `x = 0` and `u = 1` (the histogram idiom `zeros(N).at[g].add(1)`) it counts the indices equal
  to `v`, written here as a sum of zeros and ones.

  Everything is stated for arbitrary extents `N`, `E` and any integer width of the indices; a printed record
  `scatter_S<N>_S<E>x1_S<E>_n_0_0_1` is `dims` of its own well-formedness proof by `rfl`.
-/
import Idealize.ShloMosaic.PureOps.Ideal
import Idealize.ShloMosaic.PureOps.Contract
import Idealize.ShloMosaic.Lib.ValueIdx

noncomputable section

namespace Cert.Lib.VecScatter

open Idealize.ShloMosaic Idealize.ShloMosaic.ValueIdx

variable {N E : Nat}

/-- The dimension numbers of `x.at[g].add(u)`: `x` of shape `[N]`, `g` of shape `[E, 1]`, `u` of shape `[E]`. -/
abbrev dims (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) :=
  { updateWindowDims := [], insertedWindowDims := [0], scatterDimsToOperandDims := [0], indexVectorDim := 1, wf := wf }

variable (wf : ScatterDims.WF (⟨1, ![N]⟩ : Shape) (⟨2, ![E, 1]⟩ : Shape) (⟨1, ![E]⟩ : Shape) [] [0] [0] 1)

/-- Update `e` reads its start index at row `e`, column 0 of the index matrix. -/
theorem siIdx_eq (e : Fin E) (c : Fin ([0] : List (Fin 1)).length) : (dims wf).siIdx (ix1 e) c = ix2 e 0 := by
  funext b
  match b with
  | ⟨0, _⟩ => exact Fin.ext rfl
  | ⟨1, _⟩ =>
    apply Fin.ext
    have hc : c.val < 1 := c.isLt
    show c.val = 0
    omega

/-- The window of update `e` starts, on the operand's one axis, at its index read signed. -/
theorem start_eq {w : Nat} (idx : IVec (⟨2, ![E, 1]⟩ : Shape) w) (e : Fin E) (a : Fin 1) :
    (dims wf).start (ix1 e) idx a = (idx (ix2 e 0)).toInt := by
  obtain rfl : a = 0 := Subsingleton.elim _ _
  unfold ScatterDims.start
  rw [dif_pos (List.mem_singleton.2 rfl), siIdx_eq]

/-- An update is one number: its window has no extent, so the coordinate inside it is 0. -/
theorem window_eq (e : Fin E) (a : Fin 1) : (dims wf).window (ix1 e) a = 0 := by
  obtain rfl : a = 0 := Subsingleton.elim _ _
  unfold ScatterDims.window
  have hk : (dims wf).sKept = [] := rfl
  rw [dif_neg (by rw [hk]; exact List.not_mem_nil)]

/-- Update `e` lands on entry `v` exactly when its index, read signed, is `v`. -/
theorem resultIdx?_eq_some_iff {w : Nat} (idx : IVec (⟨2, ![E, 1]⟩ : Shape) w) (e : Fin E) (v : Fin N) :
    (dims wf).resultIdx? (ix1 e) idx = some (ix1 v) ↔ (idx (ix2 e 0)).toInt = (v.val : Int) := by
  unfold ScatterDims.resultIdx?
  by_cases h : ∀ a, 0 ≤ (dims wf).start (ix1 e) idx a + (dims wf).window (ix1 e) a
      ∧ (dims wf).start (ix1 e) idx a + (dims wf).window (ix1 e) a < (⟨1, ![N]⟩ : Shape).size a
  · rw [dif_pos h]
    have h0 := h 0
    rw [start_eq, window_eq] at h0
    constructor
    · intro hs
      have := congrArg Fin.val (congrFun (Option.some.inj hs) 0)
      simp only [start_eq, window_eq] at this
      have hv : ((idx (ix2 e 0)).toInt + ((0 : ℕ) : ℤ)).toNat = v.val := this
      omega
    · intro hx
      refine congrArg some (funext fun a => ?_)
      obtain rfl : a = 0 := Subsingleton.elim _ _
      apply Fin.ext
      simp only [start_eq, window_eq]
      show ((idx (ix2 e 0)).toInt + 0).toNat = v.val
      omega
  · rw [dif_neg h]
    constructor
    · intro hs; exact absurd hs (by simp)
    · intro hx
      exfalso; apply h
      intro a
      obtain rfl : a = 0 := Subsingleton.elim _ _
      rw [start_eq, window_eq]
      have hN : (⟨1, ![N]⟩ : Shape).size 0 = N := rfl
      rw [hN, hx]
      have := v.isLt
      omega

/-- A rank-1 index is its one coordinate. -/
def idxEquiv1 {n : Nat} : (⟨1, ![n]⟩ : Shape).Idx ≃ Fin n where
  toFun j := j 0
  invFun := ix1
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

/-- `x.at[g].add(u)` read at entry `v`: the operand's entry plus the updates whose index, read signed, is `v`
    (an index outside `[0, N)` lands nowhere). No finiteness is needed: it is the definition re-indexed. -/
theorem hostScatterAdd_apply {w : Nat} (x : (⟨1, ![N]⟩ : Shape).Idx → EReal) (idx : IVec (⟨2, ![E, 1]⟩ : Shape) w)
    (upd : (⟨1, ![E]⟩ : Shape).Idx → EReal) (v : Fin N) :
    Ideal.hostScatterAdd (dims wf) x idx upd (ix1 v)
      = x (ix1 v) + ∑ e : Fin E, if (idx (ix2 e 0)).toInt = (v.val : Int) then upd (ix1 e) else 0 := by
  unfold Ideal.hostScatterAdd
  congr 1
  rw [Finset.sum_filter, sum_idx1]
  exact Finset.sum_congr rfl fun e _ => if_congr (resultIdx?_eq_some_iff wf idx e v) rfl rfl

/-- The histogram idiom `zeros(N).at[g].add(1)`: entry `v` counts the indices equal to `v`, as a sum of zeros and ones. -/
theorem hostScatterAdd_count {w : Nat} (idx : IVec (⟨2, ![E, 1]⟩ : Shape) w) (v : Fin N) :
    Ideal.hostScatterAdd (dims wf) (fun _ => (0 : EReal)) idx (fun _ => (1 : EReal)) (ix1 v)
      = ∑ e : Fin E, if (idx (ix2 e 0)).toInt = (v.val : Int) then (1 : EReal) else 0 := by
  rw [hostScatterAdd_apply, zero_add]

/-- The same two readings for the host operation as a program prints it, at the ideal instance and any float format. -/
theorem host_scatterAdd_apply {φ : FTy} {w : Nat} (x : FVec Ideal (⟨1, ![N]⟩ : Shape) φ) (idx : IVec (⟨2, ![E, 1]⟩ : Shape) w)
    (upd : FVec Ideal (⟨1, ![E]⟩ : Shape) φ) (v : Fin N) :
    Host.scatterAdd (F := Ideal) (dims wf) x idx upd (ix1 v)
      = (x (ix1 v) + ∑ e : Fin E, if (idx (ix2 e 0)).toInt = (v.val : Int) then upd (ix1 e) else (0 : EReal) : EReal) :=
  hostScatterAdd_apply wf x idx upd v

theorem host_scatterAdd_count {φ : FTy} {w : Nat} (idx : IVec (⟨2, ![E, 1]⟩ : Shape) w) (v : Fin N) :
    Host.scatterAdd (F := Ideal) (φ := φ) (dims wf) (fun _ => (0 : EReal)) idx (fun _ => (1 : EReal)) (ix1 v)
      = ∑ e : Fin E, if (idx (ix2 e 0)).toInt = (v.val : Int) then (1 : EReal) else 0 :=
  hostScatterAdd_count wf idx v

end Cert.Lib.VecScatter

end
-- ==== Proof.SharedAt.lean ====
/-
  The shared per-graph host functions read at an index, over the extended reals.  With g the graph id of each row
  (a negative id wrapped by 512) and graphOf g n the id of row n clamped into 0 … 511:
    gat x g [n]        = x[graphOf g n]
    gat2 x y g [n, j]  = x[graphOf g n] for j = 0, y[graphOf g n] for j = 1
    segSum g u [j]     = 0 + Σ over the rows e with g[e] = j of u[e]
    column j of the N × 3 statistics as a stream, at n, is the entry (n, j)
  and the two reshapes between [N, 3, 128] and [N, 384] keep the row-major position: column 128·c + k is (c, k).
-/
import proofs.«150193_j37254546325938_2_alg».proof.Proof.Shared
import proofs.«150193_j37254546325938_2_alg».proof.Proof.Spec
import proofs.«150193_j37254546325938_2_alg».proof.Proof.LibRowGather
import proofs.«150193_j37254546325938_2_alg».proof.Proof.LibVecScatterAdd
import proofs.«150193_j37254546325938_2_alg».proof.Proof.LibIndexNorm
import Idealize.ShloMosaic.Lib.Pipeline.Value
import Idealize.ShloMosaic.Lib.ValueIdx
import Idealize.ShloMosaic.Lib.ValueLayout

noncomputable section

namespace Cert.Shared

open Idealize.ShloMosaic Idealize.ShloMosaic.ValueIdx Cert.KernelIdeal
open scoped BigOperators

variable [Cert.KernelIdeal.Facts]
open Cert.KernelIdeal.Facts₀

/-! ## Fills and the column view -/

/-- A filled length-512 array reads its pattern everywhere. -/
theorem fill512_apply (b : BitVec 32) (i : S512.Idx) : fill512 b i = Ideal.ofBits .f32 b := rfl

/-- A filled length-N array reads its pattern everywhere. -/
theorem fillN_apply (b : BitVec 32) (i : S200000.Idx) : fillN b i = Ideal.ofBits .f32 b := rfl

/-- A length-N array as a column reads, at (n, 0), the array's entry n. -/
theorem colOf_apply {α : Type} (x : S200000.Idx → α) (n : Fin 200000) : colOf x (ix2 n (0 : Fin 1)) = x (ix1 n) := by
  unfold colOf
  exact Cert.Lib.IndexNorm.bcast_col_apply x bcast_S200000_S200000x1_0 n

/-! ## The gathers -/

/-- Row n's graph: its id, a negative one wrapped by 512, read signed and clamped into 0 … 511. -/
def graphOf (g : IVec S200000 32) (n : Fin 200000) : Fin 512 := ⟨min ((wrapIdx g (ix1 n)).toInt.toNat) 511, by omega⟩

/-- The program's entry gather is the gather of entries of a length-512 array at an N × 1 index column. -/
theorem vecDims_eq : gather_S512_S200000x1_S200000_n_0_n_n_0_1_1
    = Cert.Lib.RowGather.vecGatherDims 512 200000 gather_S512_S200000x1_S200000_n_0_n_n_0_1_1_wf := rfl

/-- The program's row gather is the gather of rows of a 512 × 2 table at an N × 1 index column. -/
theorem rowDims_eq : gather_S512x2_S200000x1_S200000x2_1_0_n_n_0_1_12
    = Cert.Lib.RowGather.rowGatherDims 512 2 200000 gather_S512x2_S200000x1_S200000x2_1_0_n_n_0_1_12_wf := rfl

/-- The program's scatter-add is the scatter-add of a length-N stream into a length-512 array at an N × 1 index column. -/
theorem scatDims_eq : scatter_S512_S200000x1_S200000_n_0_0_1
    = Cert.Lib.VecScatter.dims scatter_S512_S200000x1_S200000_n_0_0_1_wf := rfl

/-- The clamped start index of row n in the index column is row n's graph. -/
theorem clampRow_eq (g : IVec S200000 32) (n : Fin 200000)
    (h : min (colOf (wrapIdx g) (ix2 n (0 : Fin 1))).toInt.toNat (512 - 1) < 512) :
    (⟨min (colOf (wrapIdx g) (ix2 n (0 : Fin 1))).toInt.toNat (512 - 1), h⟩ : Fin 512) = graphOf g n :=
  Fin.ext (by
    show min (colOf (wrapIdx g) (ix2 n (0 : Fin 1))).toInt.toNat (512 - 1) = min ((wrapIdx g (ix1 n)).toInt.toNat) 511
    rw [colOf_apply])

/-- A per-graph array read at each row's graph, at row n. -/
theorem gat_apply (x : FVec Ideal S512 .f32) (g : IVec S200000 32) (n : Fin 200000) :
    gat x g (ix1 n) = x (ix1 (graphOf g n)) := by
  unfold gat
  rw [vecDims_eq]
  refine (Cert.Lib.RowGather.vecGather_apply (by decide) _ x (colOf (wrapIdx g)) n).trans ?_
  rw [clampRow_eq]

/-- The 512 × 2 table of two per-graph arrays reads, at (m, j), the first at m for j = 0 and the second for j = 1. -/
theorem table_apply (x y : FVec Ideal S512 .f32) (m : Fin 512) (j : Fin 2) :
    concatenate S512x2 1 [⟨S512x1, broadcastInDim S512x1 ![0] bcast_S512_S512x1_0 x⟩,
        ⟨S512x1, broadcastInDim S512x1 ![0] bcast_S512_S512x1_0 y⟩] concatenates_S512x1_S512x1_S512x2_d1 (ix2 m j)
      = if j.val = 0 then x (ix1 m) else y (ix1 m) := by
  match j with
  | ⟨0, _⟩ =>
    rw [if_pos rfl]
    refine (concatenate_pair_apply_left (t := S512x2) (s₁ := S512x1) (s₂ := S512x1) 1 _ _ concatenates_S512x1_S512x1_S512x2_d1 (ix2 m ⟨0, _⟩) rfl
      (ix2 m (0 : Fin 1)) (fun b => ?_)).trans (Cert.Lib.IndexNorm.bcast_col_apply x bcast_S512_S512x1_0 m)
    match b with
    | ⟨0, _⟩ => rfl
    | ⟨1, _⟩ => rfl
  | ⟨1, _⟩ =>
    rw [if_neg (show ¬ (1 : Nat) = 0 from Nat.one_ne_zero)]
    refine (concatenate_pair_apply_right (t := S512x2) (s₁ := S512x1) (s₂ := S512x1) 1 _ _ concatenates_S512x1_S512x1_S512x2_d1 (ix2 m ⟨1, _⟩) rfl rfl
      (ix2 m (0 : Fin 1)) (fun b hb => ?_) ?_).trans (Cert.Lib.IndexNorm.bcast_col_apply y bcast_S512_S512x1_0 m)
    · match b with
      | ⟨0, _⟩ => rfl
      | ⟨1, _⟩ => exact absurd rfl hb
    · rfl

/-- Two per-graph arrays read at each row's graph as an N × 2 array, at (n, j). -/
theorem gat2_apply (x y : FVec Ideal S512 .f32) (g : IVec S200000 32) (n : Fin 200000) (j : Fin 2) :
    gat2 x y g (ix2 n j) = if j.val = 0 then x (ix1 (graphOf g n)) else y (ix1 (graphOf g n)) := by
  unfold gat2
  rw [rowDims_eq]
  refine (Cert.Lib.RowGather.rowGather_apply (by decide) _ _ (colOf (wrapIdx g)) n j).trans ?_
  rw [clampRow_eq, table_apply]

/-! ## The statistics' columns and the reciprocal table's columns -/

/-- An [a, 1] column cast to the vector [a] reads, at i, the column's entry (i, 0). -/
theorem column_cast_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column 0 of the statistics as a stream, at n. -/
theorem statCol0_apply (st : FVec Ideal S200000x3 .f32) (n : Fin 200000) : statCol0 st (ix1 n) = st (ix2 n (0 : Fin 3)) := by
  unfold statCol0
  refine (column_cast_apply _ shapeCasts_S200000x1_S200000 n).trans ?_
  exact slice2_axis1_apply 0 st slices_S200000x3_S200000x1_0_0 n (0 : Fin 1) (0 : Fin 3) rfl

/-- Column 1 of the statistics as a stream, at n. -/
theorem statCol1_apply (st : FVec Ideal S200000x3 .f32) (n : Fin 200000) : statCol1 st (ix1 n) = st (ix2 n (1 : Fin 3)) := by
  unfold statCol1
  refine (column_cast_apply _ shapeCasts_S200000x1_S200000 n).trans ?_
  exact slice2_axis1_apply 1 st slices_S200000x3_S200000x1_0_1 n (0 : Fin 1) (1 : Fin 3) rfl

/-- Column 2 of the statistics as a stream, at n. -/
theorem statCol2_apply (st : FVec Ideal S200000x3 .f32) (n : Fin 200000) : statCol2 st (ix1 n) = st (ix2 n (2 : Fin 3)) := by
  unfold statCol2
  refine (column_cast_apply _ shapeCasts_S200000x1_S200000 n).trans ?_
  exact slice2_axis1_apply 2 st slices_S200000x3_S200000x1_0_2 n (0 : Fin 1) (2 : Fin 3) rfl

/-- Column 0 of an N × 2 array cut out as an N × 1 column, at (n, 0). -/
theorem slice2_0_apply (y : FVec Ideal S200000x2 .f32) (n : Fin 200000) :
    extractStridedSlice S200000x1 ![0, 0] y Facts₀.slices_S200000x2_S200000x1_0_0 (ix2 n (0 : Fin 1)) = y (ix2 n (0 : Fin 2)) :=
  slice2_axis1_apply 0 y slices_S200000x2_S200000x1_0_0 n (0 : Fin 1) (0 : Fin 2) rfl

/-- Column 1 of an N × 2 array cut out as an N × 1 column, at (n, 0). -/
theorem slice2_1_apply (y : FVec Ideal S200000x2 .f32) (n : Fin 200000) :
    extractStridedSlice S200000x1 ![0, 1] y Facts₀.slices_S200000x2_S200000x1_0_1 (ix2 n (0 : Fin 1)) = y (ix2 n (1 : Fin 2)) :=
  slice2_axis1_apply 1 y slices_S200000x2_S200000x1_0_1 n (0 : Fin 1) (1 : Fin 2) rfl

/-! ## The per-graph sum -/

/-- The per-graph sum at graph j: zero plus the stream's entries at the rows whose id, read signed, is j. -/
theorem segSum_apply (g : IVec S200000 32) (u : FVec Ideal S200000 .f32) (j : Fin 512) :
    segSum g u (ix1 j) = Ideal.ofBits .f32 0x00000000#32
      + ∑ e : Fin 200000, if (g (ix1 e)).toInt = (j.val : Int) then u (ix1 e) else (0 : EReal) := by
  unfold segSum
  rw [scatDims_eq]
  refine (Cert.Lib.VecScatter.host_scatterAdd_apply _ (fill512 0x00000000#32) (colOf g) u j).trans ?_
  rw [fill512_apply]
  exact congrArg (fun z : EReal => Ideal.ofBits .f32 0x00000000#32 + z)
    (Finset.sum_congr rfl fun e _ => by rw [colOf_apply])

/-! ## The two reshapes -/

/-- The vector features flattened to 384 columns read, at column 128·c + k of row n, the entry (n, c, k). -/
theorem flat_apply (v : FVec Ideal S200000x3x128 .f32) (n : Fin 200000) (c : Fin 3) (k : Fin 128) :
    shapeCast S200000x384 v Facts₀.shapeCasts_S200000x3x128_S200000x384 (ix2 n (Cert.Spec.col c k)) = v (ix3 n c k) :=
  shapeCast_apply v _ _ _ (by
    rw [Shape.rowMajor_val_three, Shape.rowMajor_val_two]
    show (n.val * 3 + c.val) * 128 + k.val = n.val * 384 + (128 * c.val + k.val)
    omega)

/-- The 384 columns unflattened read, at (n, c, k), column 128·c + k of row n. -/
theorem unflat_apply (z : FVec Ideal S200000x384 .f32) (n : Fin 200000) (c : Fin 3) (k : Fin 128) :
    shapeCast S200000x3x128 z Facts₀.shapeCasts_S200000x384_S200000x3x128 (ix3 n c k) = z (ix2 n (Cert.Spec.col c k)) :=
  shapeCast_apply z _ _ _ (by
    rw [Shape.rowMajor_val_three, Shape.rowMajor_val_two]
    show n.val * 384 + (128 * c.val + k.val) = (n.val * 3 + c.val) * 128 + k.val
    omega)

end Cert.Shared

end
-- ==== Proof.LibAttnSwap.lean ====
/-
  Scaled dot-product attention for one query row on the extended reals: dividing once after weighing the values equals
  dividing every weight first, when all scores and values are real numbers.

  For a query row `q` of length `d` and `n` key rows the scaled score against key `c` is `(∑ j, q j · k c j) · scale`, with
  `scale` the float pattern of one eighth.  With `M` the largest score, the shifted exponentials are `e c = exp (s c − M)`.
  One arrangement weighs the value rows by the exponentials and divides the total once by their sum,
  `(∑ c, e c · v c) / ∑ c, e c`; the other divides every exponential by the sum first, `∑ c, (e c / ∑ c', e c') · v c`.
  On the extended reals the two differ at infinities.  When every score and value is a real number the largest score is one
  of the scores, hence real; every shifted exponential is the coercion of a positive real, and so is their sum `Z`;
  division by the nonzero real `Z` is multiplication by `1 / Z`; both arrangements are then coercions of real sums and the
  identity between them is distributivity in the reals.  Also here: real-valuedness is closed under products and finite
  sums, the scale is the real 1/8, and the coercion of the reals commutes with finite sums.
-/
import Idealize.ShloMosaic.PureOps.Ideal

noncomputable section

namespace Cert.Lib.AttnSwap

open Idealize.ShloMosaic
open scoped BigOperators

/-- An extended real that is a real number. -/
def IsReal (x : EReal) : Prop := ∃ r : ℝ, x = (r : EReal)

/-- The scale one eighth, as the float pattern both programs carry. -/
def scale : EReal := Ideal.ofBits .f32 0x3E000000#32

/-- The scaled score of one query row against key row `c`. -/
def score {n d : ℕ} (q : Fin d → EReal) (k : Fin n → Fin d → EReal) (c : Fin n) : EReal :=
  (∑ j : Fin d, q j * k c j) * scale

/-- The exponential of a score shifted by the largest score. -/
def expShift {n : ℕ} (s : Fin n → EReal) (c : Fin n) : EReal :=
  Ideal.exp (s c - (Finset.univ : Finset (Fin n)).sup s)

/-- Weigh by the shifted exponentials, then divide once by their sum. -/
def attnDivAfter {n : ℕ} (s v : Fin n → EReal) : EReal :=
  Ideal.div (∑ c : Fin n, expShift s c * v c) (∑ c : Fin n, expShift s c)

/-- Divide every shifted exponential by their sum, then weigh. -/
def attnDivBefore {n : ℕ} (s v : Fin n → EReal) : EReal :=
  ∑ c : Fin n, Ideal.div (expShift s c) (∑ c' : Fin n, expShift s c') * v c

/-! ### Real-valuedness is closed under the ring operations and finite sums -/

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

theorem isReal_finset_sum {ι : Type*} (t : Finset ι) (f : ι → EReal) (hf : ∀ i, IsReal (f i)) :
    IsReal (∑ i ∈ t, f i) := by
  choose φ hφ using hf
  refine ⟨∑ i ∈ t, φ i, ?_⟩
  rw [coe_finset_sum]
  exact Finset.sum_congr rfl fun i _ => hφ i

/-! ### The scale, the dot product, the score -/

/-- The float pattern of the scale denotes one eighth: sign 0, biased exponent 124, fraction 0, that is
    `2 ^ 23 · 2 ^ (124 − 127 − 23) = 2 ^ (−3)`. -/
theorem scale_eq : scale = ((1 / 8 : ℝ) : EReal) := by
  simp [scale, Ideal.ofBits, Ideal.ieee]
  rw [← EReal.coe_mul]
  congr 1
  norm_num

theorem isReal_scale : IsReal scale := ⟨1 / 8, scale_eq⟩

theorem isReal_sum_mul {K : ℕ} (f g : Fin K → EReal) (hf : ∀ k, IsReal (f k)) (hg : ∀ k, IsReal (g k)) :
    IsReal (∑ k, f k * g k) :=
  isReal_finset_sum _ _ fun k => (hf k).mul (hg k)

theorem isReal_score {n d : ℕ} (q : Fin d → EReal) (k : Fin n → Fin d → EReal) (hq : ∀ j, IsReal (q j))
    (hk : ∀ c j, IsReal (k c j)) (c : Fin n) : IsReal (score q k c) :=
  (isReal_sum_mul q (k c) hq (hk c)).mul isReal_scale

/-! ### The two arrangements agree on real scores and values -/

theorem attn_div_swap {n : ℕ} (hn : 0 < n) (s v : Fin n → EReal) (hs : ∀ c, IsReal (s c)) (hv : ∀ c, IsReal (v c)) :
    attnDivAfter s v = attnDivBefore s v := by
  choose σ hσ using hs
  choose ν hν using hv
  -- the largest score is attained, so it is a real number
  have hne : (Finset.univ : Finset (Fin n)).Nonempty := ⟨⟨0, hn⟩, Finset.mem_univ _⟩
  obtain ⟨c₀, -, hM⟩ := Finset.exists_mem_eq_sup (Finset.univ : Finset (Fin n)) hne s
  -- every shifted exponential is the coercion of a positive real
  have he : ∀ c, expShift s c = ((Real.exp (σ c - σ c₀) : ℝ) : EReal) := by
    intro c
    rw [expShift, hM, hσ c, hσ c₀, ← EReal.coe_sub, Ideal.exp_coe]
  -- their sum is a positive real
  have hZpos : 0 < ∑ c : Fin n, Real.exp (σ c - σ c₀) :=
    Finset.sum_pos (fun c _ => Real.exp_pos _) hne
  have hZ : (∑ c : Fin n, expShift s c) = ((∑ c : Fin n, Real.exp (σ c - σ c₀) : ℝ) : EReal) := by
    rw [coe_finset_sum]
    exact Finset.sum_congr rfl fun c _ => he c
  -- both sides are coercions of real sums
  rw [attnDivAfter, attnDivBefore, hZ]
  simp only [Ideal.div_coe hZpos.ne', he, hν, ← EReal.coe_mul, ← coe_finset_sum]
  -- distributivity in the reals
  rw [Finset.sum_mul]
  congr 1
  exact Finset.sum_congr rfl fun c _ => by ring

end Cert.Lib.AttnSwap

end
-- ==== Proof.Algebra.lean ====
/-
  The algebra that joins the two programs, on the extended reals.
  * For real numbers a₁ … a₁₂₈ and a real γ, the mean of (aₖ − γ)² is E[a²] − (2γ)·E[a] + γ·γ, which is non-negative,
    so clamping it at 0 changes nothing.  (False when γ is infinite: the reason the row's graph mean must be real.)
  * x · (1 / y) = x / y for every extended real x once y ≠ 0.
  * Closure of "is a real number" under the operations the per-graph arithmetic uses.
-/
import Idealize.ShloMosaic.PureOps.Ideal
import proofs.«150193_j37254546325938_2_alg».proof.Proof.LibAttnSwap

noncomputable section

namespace Cert.Algebra

open Idealize.ShloMosaic Cert.Lib.AttnSwap
open scoped BigOperators

theorem h128 : (128 : ℝ) ≠ 0 := by norm_num

/-- Multiplying by the reciprocal is dividing, off a zero divisor. -/
theorem mul_recip (x y : EReal) (hy : y ≠ 0) : x * Ideal.div ((1 : ℝ) : EReal) y = Ideal.div x y := by
  unfold Ideal.div
  rw [if_neg hy, if_neg hy, EReal.coe_one, one_mul]

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact ⟨a * (1 / b), (EReal.coe_mul a (1 / b)).symm⟩

theorem isReal_zero : IsReal (0 : EReal) := ⟨0, rfl⟩

/-- A maximum with a positive real is not zero. -/
theorem max_pos_ne_zero (x : EReal) (r : ℝ) (hr : 0 < r) : max x (r : EReal) ≠ 0 := by
  have h : (0 : EReal) < max x (r : EReal) := lt_of_lt_of_le (by exact_mod_cast hr) (le_max_right _ _)
  exact ne_of_gt h

/-- The real identity behind the variance: Σ (aₖ − γ)² = Σ aₖ² − 2γ Σ aₖ + 128 γ². -/
theorem sum_sq_sub (a : Fin 128 → ℝ) (γ : ℝ) :
    ∑ k, (a k - γ) * (a k - γ) = (∑ k, a k * a k) - 2 * γ * (∑ k, a k) + 128 * (γ * γ) := by
  have h : ∀ k, (a k - γ) * (a k - γ) = a k * a k - 2 * γ * a k + γ * γ := fun k => by ring
  simp only [h, Finset.sum_add_distrib, Finset.sum_sub_distrib, ← Finset.mul_sum, Finset.sum_const, Finset.card_univ,
    Fintype.card_fin, nsmul_eq_mul]
  norm_num
  ring

/-- The centred mean square of 128 reals about a real γ, as the clamped expansion. -/
theorem var_identity (a : Fin 128 → ℝ) (γ : ℝ) :
    Ideal.div (∑ k, ((a k : EReal) - (γ : EReal)) * ((a k : EReal) - (γ : EReal))) ((128 : ℝ) : EReal)
      = max (Ideal.div (∑ k, (a k : EReal) * (a k : EReal)) ((128 : ℝ) : EReal)
              - (((2 : ℝ) : EReal) * (γ : EReal)) * Ideal.div (∑ k, (a k : EReal)) ((128 : ℝ) : EReal)
              + (γ : EReal) * (γ : EReal)) (0 : EReal) := by
  rw [Ideal.div_coe h128, Ideal.div_coe h128, Ideal.div_coe h128]
  simp only [← EReal.coe_sub, ← EReal.coe_mul, ← coe_finset_sum, ← EReal.coe_add]
  have hnn : (0 : ℝ) ≤ (∑ k, a k * a k) * (1 / 128) - 2 * γ * ((∑ k, a k) * (1 / 128)) + γ * γ := by
    have : (∑ k, a k * a k) * (1 / 128) - 2 * γ * ((∑ k, a k) * (1 / 128)) + γ * γ
        = (∑ k, (a k - γ) * (a k - γ)) * (1 / 128) := by rw [sum_sq_sub]; ring
    rw [this]
    exact mul_nonneg (Finset.sum_nonneg fun k _ => mul_self_nonneg _) (by norm_num)
  rw [max_eq_left (by exact_mod_cast hnn)]
  refine congrArg _ ?_
  rw [sum_sq_sub]; ring

end Cert.Algebra

end
-- ==== Proof.Reals.lean ====
/-
  "Is a real number" carried through the per-graph host arithmetic, over the extended reals.

  A per-graph sum of a stream of real numbers is a real number (zero plus a finite sum of reals and zeros).  A graph's
  row count is the maximum of such a sum of ones and the real 1: a real number, and at least 1, hence not zero.  So a
  per-graph mean of a real stream, a real sum divided by a nonzero real, is a real number, and so is that mean read
  back at a row's graph.  A row's mean over its 128 channels divides a real sum by the real 128.  Finally a maximum with
  the positive real ε is never zero.
-/
import proofs.«150193_j37254546325938_2_alg».proof.Proof.SharedAt
import proofs.«150193_j37254546325938_2_alg».proof.Proof.Algebra
import proofs.«150193_j37254546325938_2_alg».proof.Proof.Consts

noncomputable section

namespace Cert.Reals

open Idealize.ShloMosaic Idealize.ShloMosaic.ValueIdx Cert.KernelIdeal Cert.Shared Cert.Lib.AttnSwap Cert.Algebra
open scoped BigOperators

variable [Cert.KernelIdeal.Facts]

/-! ## The pointwise operations read at an index -/

/-- The row count at an index: the maximum of the per-graph sum of ones and one. -/
theorem counts_apply (g : IVec S200000 32) (i : S512.Idx) :
    counts g i = max (segSum g (fillN 0x3F800000#32) i) (Ideal.ofBits .f32 0x3F800000#32) := by
  unfold counts maximumf
  rw [Ideal.maximumf_def, fill512_apply]

/-- The per-graph mean at an index: the per-graph sum over the row count. -/
theorem segMean_apply (g : IVec S200000 32) (u : FVec Ideal S200000 .f32) (i : S512.Idx) :
    segMean g u i = Ideal.div (segSum g u i) (counts g i) := by
  unfold segMean Host.divf
  rw [Ideal.hostDivf_def]

/-- The clamp at an index: the maximum with ε. -/
theorem clampEps_apply (x : FVec Ideal S512 .f32) (i : S512.Idx) :
    clampEps x i = max (x i) (Ideal.ofBits .f32 0x358637BD#32) := by
  unfold clampEps maximumf
  rw [Ideal.maximumf_def, fill512_apply]

/-! ## Real numbers through the per-graph arithmetic -/

/-- A per-graph sum of a real stream is real: zero plus a finite sum whose terms are stream entries or zeros. -/
theorem segSum_real (g : IVec S200000 32) (u : FVec Ideal S200000 .f32) (hu : ∀ e : Fin 200000, IsReal (u (ix1 e)))
    (j : Fin 512) : IsReal (segSum g u (ix1 j)) := by
  rw [segSum_apply, Cert.Consts.ofBits_zero]
  refine IsReal.add isReal_zero (isReal_finset_sum _ _ fun e => ?_)
  by_cases he : (g (ix1 e)).toInt = (j.val : Int)
  · rw [if_pos he]; exact hu e
  · rw [if_neg he]; exact isReal_zero

/-- A row count is a real number, and not zero: it is a maximum of a real number with 1. -/
theorem counts_apply_real (g : IVec S200000 32) (j : Fin 512) : IsReal (counts g (ix1 j)) ∧ counts g (ix1 j) ≠ 0 := by
  rw [counts_apply, Cert.Consts.ofBits_one]
  refine ⟨IsReal.max (segSum_real g _ (fun e => ?_) j) (isReal_coe 1), max_pos_ne_zero _ 1 one_pos⟩
  rw [fillN_apply, Cert.Consts.ofBits_one]
  exact isReal_coe 1

/-- A per-graph mean of a real stream is real: a real sum over a nonzero real count. -/
theorem segMean_real (g : IVec S200000 32) (u : FVec Ideal S200000 .f32) (hu : ∀ e : Fin 200000, IsReal (u (ix1 e)))
    (j : Fin 512) : IsReal (segMean g u (ix1 j)) := by
  rw [segMean_apply]
  exact IsReal.div (segSum_real g u hu j) (counts_apply_real g j).1 (counts_apply_real g j).2

/-- The per-graph mean of a real stream read at a row's graph is real. -/
theorem gat_segMean_real (g : IVec S200000 32) (u : FVec Ideal S200000 .f32) (hu : ∀ e : Fin 200000, IsReal (u (ix1 e)))
    (n : Fin 200000) : IsReal (gat (segMean g u) g (ix1 n)) := by
  rw [gat_apply]
  exact segMean_real g u hu (graphOf g n)

/-- A row's mean over its 128 channels is real when the entries are: a real sum over the real 128. -/
theorem rowMean_real (s : (⟨2, ![200000, 128]⟩ : Shape).Idx → EReal) (hs : ∀ i, IsReal (s i)) (n : Fin 200000) :
    IsReal (Cert.Spec.rowMean s n) := by
  show IsReal (Ideal.div (∑ k : Fin 128, s (ix2 n k)) (Ideal.ofBits .f32 0x43000000#32))
  rw [Cert.Consts.ofBits_128]
  exact IsReal.div (isReal_finset_sum _ _ fun k => hs _) (isReal_coe 128) (by exact_mod_cast h128)

/-- A clamp below by ε is never zero: ε is a positive real. -/
theorem clampEps_ne_zero (x : FVec Ideal S512 .f32) (j : Fin 512) : clampEps x (ix1 j) ≠ 0 := by
  obtain ⟨r, hr, he⟩ := Cert.Consts.ofBits_eps
  rw [clampEps_apply, he]
  exact max_pos_ne_zero _ r hr

end Cert.Reals

end
-- ==== Proof.Bridge.lean ====
/-
  The two programs compute the same arrays.  Both spread per-graph statistics to the rows with the same scatter-adds
  and gathers of the graph ids, so those stay closed; what differs is
  * the kernel program takes the per-row mean, mean square and vector norm from its packed statistics array, the
    reference recomputes them: the same sums;
  * the per-row variance: the reference centres each row at its graph mean μ and averages the squares, the kernel
    program expands E[s²] − (2μ)·E[s] + μ·μ and clamps at 0: equal when the row and μ are real (the precondition
    makes the rows real, and μ is then a quotient of a finite sum of reals by a count ≥ 1);
  * the kernel program multiplies by the reciprocals 1/var, 1/vmean where the reference divides: equal because the
    clamped var and vmean are ≥ ε > 0.
-/
import proofs.«150193_j37254546325938_2_alg».proof.Proof.SharedAt
import proofs.«150193_j37254546325938_2_alg».proof.Proof.RefSide
import proofs.«150193_j37254546325938_2_alg».proof.Proof.Reals
import proofs.«150193_j37254546325938_2_alg».proof.Proof.Algebra
import proofs.«150193_j37254546325938_2_alg».proof.Proof.Consts
import proofs.«150193_j37254546325938_2_alg».proof.Proof.Spec

noncomputable section

namespace Cert.Bridge

open Idealize.ShloMosaic Idealize.ShloMosaic.ValueIdx Cert.KernelIdeal Cert.Shared Cert.RefSide
open Cert.Lib.AttnSwap Cert.Algebra Cert.Reals
open scoped BigOperators

variable [Cert.KernelIdeal.Facts] [Cert.ReferenceIdeal.Facts]

/-- v with its last two axes merged. -/
abbrev flat (v : FVec Ideal S200000x3x128 .f32) : FVec Ideal S200000x384 .f32 :=
  shapeCast S200000x384 v Facts₀.shapeCasts_S200000x3x128_S200000x384

/-- The reciprocal table at an entry. -/
theorem recip512_apply (x : FVec Ideal S512 .f32) (i : S512.Idx) :
    recip512 x i = Ideal.div (fill512 0x3F800000#32 i) (x i) := rfl

variable (s : FVec Ideal S200000x128 .f32) (v : FVec Ideal S200000x3x128 .f32) (g : IVec S200000 32)

/-- Column 0 of the packed statistics is the reference's per-row mean. -/
theorem statCol0_eq : statCol0 (Cert.Spec.statsOf s (flat v)) = rMeanNode s := by
  funext i
  obtain ⟨n, rfl⟩ : ∃ n : Fin 200000, i = ix1 n := ⟨i 0, eq_ix1 i⟩
  rw [statCol0_apply, rMeanNode_apply]
  rfl

/-- Column 2 of the packed statistics is the reference's per-row vector norm: the flattened row's column 128·c + k
    is component c, channel k. -/
theorem statCol2_eq : statCol2 (Cert.Spec.statsOf s (flat v)) = rVnormNode v := by
  funext i
  obtain ⟨n, rfl⟩ : ∃ n : Fin 200000, i = ix1 n := ⟨i 0, eq_ix1 i⟩
  rw [statCol2_apply, rVnormNode_apply]
  show Cert.Spec.rowVnorm (flat v) n = _
  unfold Cert.Spec.rowVnorm
  simp only [flat_apply]

/-- The row's graph mean is real when the rows are. -/
theorem mu_real (hs : ∀ i, IsReal (s i)) (n : Fin 200000) : IsReal (rMu s g (ix1 n)) :=
  gat_segMean_real g (rMeanNode s) (fun e => by rw [rMeanNode_apply]; exact rowMean_real s hs e) n

/-- The expanded, clamped per-row variance is the centred one, on real rows. -/
theorem kVarNode_eq (hs : ∀ i, IsReal (s i)) : kVarNode (Cert.Spec.statsOf s (flat v)) g = rVarNode s g := by
  funext i
  obtain ⟨n, rfl⟩ : ∃ n : Fin 200000, i = ix1 n := ⟨i 0, eq_ix1 i⟩
  rw [rVarNode_apply]
  unfold kVarNode
  rw [statCol0_eq]
  show max ((statCol1 (Cert.Spec.statsOf s (flat v)) (ix1 n)
      - (fillN 0x40000000#32 (ix1 n) * rMu s g (ix1 n)) * rMeanNode s (ix1 n)) + rMu s g (ix1 n) * rMu s g (ix1 n))
      (fillN 0x00000000#32 (ix1 n)) = _
  rw [statCol1_apply, rMeanNode_apply, Shared.fillN_apply, Shared.fillN_apply]
  show max ((Cert.Spec.rowSqMean s n - (Ideal.ofBits .f32 0x40000000#32 * rMu s g (ix1 n)) * Cert.Spec.rowMean s n)
      + rMu s g (ix1 n) * rMu s g (ix1 n)) (Ideal.ofBits .f32 0x00000000#32) = _
  obtain ⟨γ, hγ⟩ := mu_real s g hs n
  choose a ha using fun k : Fin 128 => hs (ix2 n k)
  unfold Cert.Spec.rowSqMean Cert.Spec.rowMean Cert.Spec.c128
  simp only [rCentered_apply, ha, hγ, Cert.Consts.ofBits_two, Cert.Consts.ofBits_zero, Cert.Consts.ofBits_128]
  exact (var_identity a γ).symm

variable (w b : FVec Ideal S128 .f32)

/-- The scalar outputs agree. -/
theorem sout_eq (hs : ∀ i, IsReal (s i)) :
    Cert.Spec.soutOf s (colOf (gat (segMean g (statCol0 (Cert.Spec.statsOf s (flat v)))) g))
      (extractStridedSlice S200000x1 ![0, 0] (kRecips (Cert.Spec.statsOf s (flat v)) g) Facts₀.slices_S200000x2_S200000x1_0_0) w b
      = rSout s g w b := by
  funext i
  obtain ⟨n, k, rfl⟩ : ∃ (n : Fin 200000) (k : Fin 128), i = ix2 n k := ⟨i 0, i 1, eq_ix2 i⟩
  rw [rSout_apply, rCentered_apply]
  show ((s (ix2 n k) - colOf (gat (segMean g (statCol0 (Cert.Spec.statsOf s (flat v)))) g) (ix2 n 0))
      * extractStridedSlice S200000x1 ![0, 0] (kRecips (Cert.Spec.statsOf s (flat v)) g) Facts₀.slices_S200000x2_S200000x1_0_0 (ix2 n 0))
      * w (ix1 k) + b (ix1 k) = _
  rw [colOf_apply, slice2_0_apply]
  unfold kRecips
  rw [gat2_apply, if_pos (show ((0 : Fin 2) : ℕ) = 0 from rfl), statCol0_eq, kVarNode_eq s v g hs, gat_apply]
  rw [recip512_apply, fill512_apply, Cert.Consts.ofBits_one, mul_recip _ _ (clampEps_ne_zero _ _)]
  unfold rMu
  rw [gat_apply, gat_apply]

/-- The vector outputs agree. -/
theorem vout_eq :
    shapeCast S200000x3x128 (Cert.Spec.voutOf (flat v)
      (extractStridedSlice S200000x1 ![0, 1] (kRecips (Cert.Spec.statsOf s (flat v)) g) Facts₀.slices_S200000x2_S200000x1_0_1))
      Facts₀.shapeCasts_S200000x384_S200000x3x128 = rVout v g := by
  funext i
  obtain ⟨n, c, k, rfl⟩ : ∃ (n : Fin 200000) (c : Fin 3) (k : Fin 128), i = ix3 n c k := ⟨i 0, i 1, i 2, eq_ix3 i⟩
  rw [unflat_apply, rVout_apply]
  show shapeCast S200000x384 v Facts₀.shapeCasts_S200000x3x128_S200000x384 (ix2 n (Cert.Spec.col c k))
      * extractStridedSlice S200000x1 ![0, 1] (kRecips (Cert.Spec.statsOf s (flat v)) g) Facts₀.slices_S200000x2_S200000x1_0_1 (ix2 n 0) = _
  rw [flat_apply, slice2_1_apply]
  unfold kRecips
  rw [gat2_apply, if_neg (show ¬ (((1 : Fin 2) : ℕ) = 0) by decide), statCol2_eq, gat_apply]
  rw [recip512_apply, fill512_apply, Cert.Consts.ofBits_one, mul_recip _ _ (clampEps_ne_zero _ _)]

end Cert.Bridge

end
-- ==== Proof.Finite.lean ====
/-
  Finiteness of the first float argument, read back from the precondition `finite_inputs`.

  The precondition is the conjunction, over the float arguments, of `all (|x| < +inf)`. From its value being
  `true` we take the first conjunct, read the all-reduction at one index, and read the comparison there on the
  extended reals: an extended real whose absolute value lies strictly below `⊤` is neither `⊥` nor `⊤`, so it
  is (the image of) a real number.
-/
import proofs.«150193_j37254546325938_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic
open Cert.Pre_finite_inputs

/-- The rank-0 shape has exactly one index. -/
instance subsingleton_scalar_idx : Subsingleton S_.Idx := ⟨fun a b => funext fun d => d.elim0⟩

/-- The `f32` pattern `0x7F800000` (sign 0, exponent all ones, fraction 0) denotes `+∞`. -/
theorem ofBits_inf : Ideal.ofBits .f32 0x7F800000#32 = (⊤ : EReal) := by
  simp [Ideal.ofBits, Ideal.ieee]

/-- The ordered "less than" comparison on extended reals answers `1` only when the strict inequality holds. -/
theorem lt_of_cmp_olt {x y : EReal} (h : Ideal.cmp .olt x y = 1#1) : x < y := by
  have h' : BitVec.ofBool (decide (x < y)) = 1#1 := h
  by_contra hn
  rw [decide_eq_false hn] at h'
  exact absurd h' (by decide)

/-- An extended real whose absolute value `max x (-x)` is strictly below `⊤` is a real number:
    at `⊥` and at `⊤` the absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition, every entry of the first argument is a real number. -/
theorem arg0_real [Cert.Pre_finite_inputs.Facts]
    (a0 : FVec Ideal Cert.Pre_finite_inputs.S200000x128 .f32) (a1 : FVec Ideal Cert.Pre_finite_inputs.S200000x3x128 .f32)
    (a2 : IVec Cert.Pre_finite_inputs.S200000 32) (a3 a4 : FVec Ideal Cert.Pre_finite_inputs.S128 .f32)
    (h : Cert.Pre_finite_inputs.fn (F := Ideal) a0 a1 a2 a3 a4 = (fun _ => 1#1)) :
    ∀ i, ∃ r : ℝ, a0 i = (r : EReal) := by
  intro i
  -- the value of the precondition at its one index
  have h0 := congrFun h ValueIdx.ix0
  dsimp only [Cert.Pre_finite_inputs.fn, Cert.Pre_finite_inputs.fn_part1] at h0
  -- peel the conjunction down to its first conjunct, the all-reduction over the first argument
  have h1 := (IntOp.andi_eq_one.1 h0).1
  have h2 := (IntOp.andi_eq_one.1 h1).1
  have h3 := (IntOp.andi_eq_one.1 h2).1
  -- the all-reduction is 1, so the compared array is 1 at every index
  have h4 := Host.reduce_andi_all _ _ _ _ _ h3 i
  -- at index i the comparison is |a0 i| < +inf on the extended reals
  have h5 : Ideal.cmp .olt (max (a0 i) (-(a0 i))) (Ideal.ofBits .f32 0x7F800000#32) = 1#1 := h4
  rw [ofBits_inf] at h5
  exact real_of_abs_lt_top (a0 i) (lt_of_cmp_olt h5)

end Cert.Finite

end
-- ==== Proof.lean ====
/-
  The certificate's claims.  The three frames are the generated ones (the reference's is its generated run with the
  results dropped); the idealization rewrote nothing, so `preserves` is trivial.  `algebraic`: the idealized program
  ends with its results at whole-array functions of the arguments (the statistics region's packed row statistics, the
  per-graph host arithmetic, the normalising region), the reference ends at its own composed term, and the two are the
  same arrays once the scalar rows are real — which the precondition gives.
-/
import proofs.«150193_j37254546325938_2_alg».proof.Defs
import proofs.«150193_j37254546325938_2_alg».proof.Proof.Gen.Kernel
import proofs.«150193_j37254546325938_2_alg».proof.Proof.Gen.Kernel.Frame
import proofs.«150193_j37254546325938_2_alg».proof.Proof.Gen.KernelIdeal
import proofs.«150193_j37254546325938_2_alg».proof.Proof.Gen.KernelIdeal.Frame
import proofs.«150193_j37254546325938_2_alg».proof.Proof.Gen.ReferenceIdeal
import proofs.«150193_j37254546325938_2_alg».proof.Proof.Gen.ReferenceIdeal.Run
import proofs.«150193_j37254546325938_2_alg».proof.Proof.Gen.Pre_finite_inputs
import proofs.«150193_j37254546325938_2_alg».proof.Proof.Results
import proofs.«150193_j37254546325938_2_alg».proof.Proof.KFinal
import proofs.«150193_j37254546325938_2_alg».proof.Proof.RefSide
import proofs.«150193_j37254546325938_2_alg».proof.Proof.Bridge
import proofs.«150193_j37254546325938_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the same two arrays. -/
theorem algebraic : Cert.algebraic_KernelIdeal_ReferenceIdeal := by
  intro m ρ m' ρ' hpre hagree
  refine ⟨_, _, Cert.KernelIdeal.Res.run_results (F := Ideal) m ρ, ?_⟩
  refine (θ_run Cert.ReferenceIdeal.defs _ _).mono (fun _ h c => ⟨(h c).1.trans ?_, (h c).2.1.trans ?_, (h c).2.2⟩)
    (Cert.RefSide.run_ref m' ρ')
  · rw [(hagree c).1, (hagree c).2.2.1, (hagree c).2.2.2.1, (hagree c).2.2.2.2, Cert.KernelIdeal.KFinal.out0_eq]
    exact (Cert.Bridge.sout_eq _ _ _ _ _ (Cert.Finite.arg0_real _ _ _ _ _ (hpre c))).symm
  · rw [(hagree c).2.1, (hagree c).2.2.1, Cert.KernelIdeal.KFinal.out1_eq]
    exact (Cert.Bridge.vout_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
